-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x192x192x192 : Shape := ⟨5, ![8, 1, 192, 192, 192]⟩
abbrev S_ : Shape := ⟨0, ![]⟩

class Facts : Prop where
  bcast_S_S8x1x192x192x192 : S_.BroadcastsInDim S8x1x192x192x192 (![] : Fin 0 → Fin S8x1x192x192x192.rank)
  reducesTo_S8x1x192x192x192_S_d0_1_2_3_4 : S8x1x192x192x192.ReducesTo [0, 1, 2, 3, 4] S_
  h_S_ : 0 < S_.numel

variable [Facts]

def fn {F : FTy → Type} [FloatOps F] (main_arg0 : FVec F S8x1x192x192x192 .f32) : IVec S_ 1 :=
  let main_v0 : FVec F S8x1x192x192x192 .f32 := Host.absf main_arg0
  let main_cst : FVec F S_ .f32 := constant S_ .f32 0x7F800000#32
  let main_v1 : FVec F S8x1x192x192x192 .f32 := broadcastInDim S8x1x192x192x192 ![] bcast_S_S8x1x192x192x192 main_cst
  let main_v2 : IVec S8x1x192x192x192 1 := cmpf .olt main_v0 main_v1
  let main_c : IVec S_ 1 := constantI S_ 1 1#1
  let main_v3 : IVec S_ 1 := (fun x v => Host.reduce IntOp.andi x v reducesTo_S8x1x192x192x192_S_d0_1_2_3_4 h_S_) main_v2 main_c
  main_v3
-- ==== Kernel.lean ====
abbrev S8x1x192x192x192 : Shape := ⟨5, ![8, 1, 192, 192, 192]⟩
abbrev S_ : Shape := ⟨0, ![]⟩
abbrev S8x1x192x194x194 : Shape := ⟨5, ![8, 1, 192, 194, 194]⟩
abbrev S1x1x24x194x194 : Shape := ⟨5, ![1, 1, 24, 194, 194]⟩
abbrev S1x1x1x194x194 : Shape := ⟨5, ![1, 1, 1, 194, 194]⟩
abbrev S1x1x24x192x192 : Shape := ⟨5, ![1, 1, 24, 192, 192]⟩
abbrev S24x194x194 : Shape := ⟨3, ![24, 194, 194]⟩
abbrev S194x194 : Shape := ⟨2, ![194, 194]⟩
abbrev S24x192x192 : Shape := ⟨3, ![24, 192, 192]⟩
abbrev S192x192 : Shape := ⟨2, ![192, 192]⟩
abbrev S1x192x192 : Shape := ⟨3, ![1, 192, 192]⟩
abbrev S1x1x1x192x192 : Shape := ⟨5, ![1, 1, 1, 192, 192]⟩
abbrev S22x192x192 : Shape := ⟨3, ![22, 192, 192]⟩
abbrev S1x1x22x192x192 : Shape := ⟨5, ![1, 1, 22, 192, 192]⟩

abbrev nBuf : Space → Nat
  | .hbm => 5
  | .vmem => 8
  | .smem => 0
  | _ => 0

abbrev bufTy : (tb : Table) → Fin (tcTables nBuf tb) → BufTy
  | .hbm, ⟨0, _⟩ => ⟨S8x1x192x192x192, .f32⟩
  | .hbm, ⟨1, _⟩ => ⟨S_, .i32⟩
  | .hbm, ⟨2, _⟩ => ⟨S_, .f32⟩
  | .hbm, ⟨3, _⟩ => ⟨S8x1x192x194x194, .f32⟩
  | .hbm, ⟨4, _⟩ => ⟨S8x1x192x192x192, .f32⟩
  | .local _ .vmem, ⟨0, _⟩ => ⟨S1x1x24x194x194, .f32⟩
  | .local _ .vmem, ⟨1, _⟩ => ⟨S1x1x24x194x194, .f32⟩
  | .local _ .vmem, ⟨2, _⟩ => ⟨S1x1x1x194x194, .f32⟩
  | .local _ .vmem, ⟨3, _⟩ => ⟨S1x1x1x194x194, .f32⟩
  | .local _ .vmem, ⟨4, _⟩ => ⟨S1x1x1x194x194, .f32⟩
  | .local _ .vmem, ⟨5, _⟩ => ⟨S1x1x1x194x194, .f32⟩
  | .local _ .vmem, ⟨6, _⟩ => ⟨S1x1x24x192x192, .f32⟩
  | .local _ .vmem, ⟨7, _⟩ => ⟨S1x1x24x192x192, .f32⟩
  | _, _ => ⟨S8x1x192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c24_i32 : BitVec 32 := 24#32
  let v0 : BitVec 32 := Scalar.muli arg1 c24_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![arg0.toNat, c0_i32_0.toNat, v2.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c24_i32 : BitVec 32 := 24#32
  let v0 : BitVec 32 := Scalar.muli arg1 c24_i32
  let c24_i32_0 : BitVec 32 := 24#32
  let v1 : BitVec 32 := Scalar.addi v0 c24_i32_0
  let c191_i32 : BitVec 32 := 191#32
  let v2 : BitVec 32 := Scalar.minsi v1 c191_i32
  let c0_i32 : BitVec 32 := 0#32
  let c0_i32_1 : BitVec 32 := 0#32
  let c0_i32_2 : BitVec 32 := 0#32
  let c0_i32_3 : BitVec 32 := 0#32
  ![arg0.toNat, c0_i32.toNat, v2.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1x24x194x194 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x194x194 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x194x194 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x24x192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  pads_S8x1x192x192x192_S8x1x192x194x194_000_000_000_110_110 : S8x1x192x192x192.Pads (![0, 0, 0, 1, 1] : Fin 5 → Nat) ![0, 0, 0, 1, 1] ![0, 0, 0, 0, 0] S8x1x192x194x194
  h_S_ : 0 < S_.numel
  inb_S1x1x24x194x194_S1x1x24x194x194_0_0_0_0_0 : ∀ a, (![0, 0, 0, 0, 0] : Fin 5 → Nat) a + S1x1x24x194x194.size a ≤ S1x1x24x194x194.size a
  h_S1x1x24x194x194 : 0 < S1x1x24x194x194.numel
  shapeCasts_S1x1x24x194x194_S24x194x194 : S1x1x24x194x194.ShapeCasts S24x194x194
  inb_S1x1x1x194x194_S1x1x1x194x194_0_0_0_0_0 : ∀ a, (![0, 0, 0, 0, 0] : Fin 5 → Nat) a + S1x1x1x194x194.size a ≤ S1x1x1x194x194.size a
  h_S1x1x1x194x194 : 0 < S1x1x1x194x194.numel
  shapeCasts_S1x1x1x194x194_S194x194 : S1x1x1x194x194.ShapeCasts S194x194
  slices_S24x194x194_o0_1_1_S24x192x192 : S24x194x194.Slices ![0, 1, 1] S24x192x192
  slices_S24x194x194_o0_0_1_S24x192x192 : S24x194x194.Slices ![0, 0, 1] S24x192x192
  slices_S24x194x194_o0_2_1_S24x192x192 : S24x194x194.Slices ![0, 2, 1] S24x192x192
  slices_S24x194x194_o0_1_0_S24x192x192 : S24x194x194.Slices ![0, 1, 0] S24x192x192
  slices_S24x194x194_o0_1_2_S24x192x192 : S24x194x194.Slices ![0, 1, 2] S24x192x192
  slices_S194x194_o1_1_S192x192 : S194x194.Slices ![1, 1] S192x192
  slices_S24x192x192_o0_0_0_S1x192x192 : S24x192x192.Slices ![0, 0, 0] S1x192x192
  shapeCasts_S192x192_S1x192x192 : S192x192.ShapeCasts S1x192x192
  slices_S24x192x192_o1_0_0_S1x192x192 : S24x192x192.Slices ![1, 0, 0] S1x192x192
  inb_S1x1x24x192x192_S1x1x1x192x192_0_0_0_0_0 : ∀ a, (![0, 0, 0, 0, 0] : Fin 5 → Nat) a + S1x1x1x192x192.size a ≤ S1x1x24x192x192.size a
  h_S1x1x1x192x192 : 0 < S1x1x1x192x192.numel
  shapeCasts_S1x1x1x192x192_S1x192x192 : S1x1x1x192x192.ShapeCasts S1x192x192
  shapeCasts_S1x192x192_S1x1x1x192x192 : S1x192x192.ShapeCasts S1x1x1x192x192
  slices_S24x192x192_o23_0_0_S1x192x192 : S24x192x192.Slices ![23, 0, 0] S1x192x192
  slices_S24x192x192_o22_0_0_S1x192x192 : S24x192x192.Slices ![22, 0, 0] S1x192x192
  inb_S1x1x24x192x192_S1x1x1x192x192_0_0_23_0_0 : ∀ a, (![0, 0, 23, 0, 0] : Fin 5 → Nat) a + S1x1x1x192x192.size a ≤ S1x1x24x192x192.size a
  slices_S24x192x192_o1_0_0_S22x192x192 : S24x192x192.Slices ![1, 0, 0] S22x192x192
  slices_S24x192x192_o0_0_0_S22x192x192 : S24x192x192.Slices ![0, 0, 0] S22x192x192
  slices_S24x192x192_o2_0_0_S22x192x192 : S24x192x192.Slices ![2, 0, 0] S22x192x192
  inb_S1x1x24x192x192_S1x1x22x192x192_0_0_1_0_0 : ∀ a, (![0, 0, 1, 0, 0] : Fin 5 → Nat) a + S1x1x22x192x192.size a ≤ S1x1x24x192x192.size a
  h_S1x1x22x192x192 : 0 < S1x1x22x192x192.numel
  shapeCasts_S1x1x22x192x192_S22x192x192 : S1x1x22x192x192.ShapeCasts S22x192x192
  shapeCasts_S22x192x192_S1x1x22x192x192 : S22x192x192.ShapeCasts S1x1x22x192x192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x24x194x194.size a ≤ S8x1x192x194x194.size a
  hwx0_0 : ∀ i : grid0.Coords, EltTy.bits .f32 = 32 ∨ (Rect.block (s := S8x1x192x194x194) S1x1x24x194x194.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x194x194.size a ≤ S8x1x192x194x194.size a
  hwx0_1 : ∀ i : grid0.Coords, EltTy.bits .f32 = 32 ∨ (Rect.block (s := S8x1x192x194x194) S1x1x1x194x194.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x194x194.size a ≤ S8x1x192x194x194.size a
  hwx0_2 : ∀ i : grid0.Coords, EltTy.bits .f32 = 32 ∨ (Rect.block (s := S8x1x192x194x194) S1x1x1x194x194.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x24x192x192.size a ≤ S8x1x192x192x192.size a
  hwx0_3 : ∀ i : grid0.Coords, EltTy.bits .f32 = 32 ∨ (Rect.block (s := S8x1x192x192x192) S1x1x24x192x192.size (cc0_transform_3 i) (hinb0_3 i)).WholeWords (EltTy.packing .f32)

variable [Facts₀]

abbrev win0_0 : Pipeline.Window sig grid0 :=
  Pipeline.Window.ofSpec (Memref.whole main_v0) S1x1x24x194x194.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x1x194x194.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1x194x194.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x24x192x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1x192x192x192 : Shape := ⟨5, ![8, 1, 192, 192, 192]⟩
abbrev S_ : Shape := ⟨0, ![]⟩
abbrev S8x1x194x194x194 : Shape := ⟨5, ![8, 1, 194, 194, 194]⟩

abbrev nBuf : Space → Nat
  | .hbm => 20
  | .vmem => 0
  | .smem => 0
  | _ => 0

abbrev bufTy : (tb : Table) → Fin (tcTables nBuf tb) → BufTy
  | .hbm, ⟨0, _⟩ => ⟨S8x1x192x192x192, .f32⟩
  | .hbm, ⟨1, _⟩ => ⟨S_, .i32⟩
  | .hbm, ⟨2, _⟩ => ⟨S_, .f32⟩
  | .hbm, ⟨3, _⟩ => ⟨S8x1x194x194x194, .f32⟩
  | .hbm, ⟨4, _⟩ => ⟨S8x1x192x192x192, .f32⟩
  | .hbm, ⟨5, _⟩ => ⟨S8x1x192x192x192, .f32⟩
  | .hbm, ⟨6, _⟩ => ⟨S8x1x192x192x192, .f32⟩
  | .hbm, ⟨7, _⟩ => ⟨S8x1x192x192x192, .f32⟩
  | .hbm, ⟨8, _⟩ => ⟨S8x1x192x192x192, .f32⟩
  | .hbm, ⟨9, _⟩ => ⟨S8x1x192x192x192, .f32⟩
  | .hbm, ⟨10, _⟩ => ⟨S8x1x192x192x192, .f32⟩
  | .hbm, ⟨11, _⟩ => ⟨S8x1x192x192x192, .f32⟩
  | .hbm, ⟨12, _⟩ => ⟨S8x1x192x192x192, .f32⟩
  | .hbm, ⟨13, _⟩ => ⟨S8x1x192x192x192, .f32⟩
  | .hbm, ⟨14, _⟩ => ⟨S8x1x192x192x192, .f32⟩
  | .hbm, ⟨15, _⟩ => ⟨S8x1x192x192x192, .f32⟩
  | .hbm, ⟨16, _⟩ => ⟨S_, .f32⟩
  | .hbm, ⟨17, _⟩ => ⟨S8x1x192x192x192, .f32⟩
  | .hbm, ⟨18, _⟩ => ⟨S8x1x192x192x192, .f32⟩
  | .hbm, ⟨19, _⟩ => ⟨S8x1x192x192x192, .f32⟩
  | _, _ => ⟨S8x1x192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  pads_S8x1x192x192x192_S8x1x194x194x194_000_000_110_110_110 : S8x1x192x192x192.Pads (![0, 0, 1, 1, 1] : Fin 5 → Nat) ![0, 0, 1, 1, 1] ![0, 0, 0, 0, 0] S8x1x194x194x194
  h_S_ : 0 < S_.numel
  slices_S8x1x194x194x194_S8x1x192x192x192_0_0_1_1_1 : S8x1x194x194x194.Slices ![0, 0, 1, 1, 1] S8x1x192x192x192
  slices_S8x1x194x194x194_S8x1x192x192x192_0_0_0_1_1 : S8x1x194x194x194.Slices ![0, 0, 0, 1, 1] S8x1x192x192x192
  slices_S8x1x194x194x194_S8x1x192x192x192_0_0_2_1_1 : S8x1x194x194x194.Slices ![0, 0, 2, 1, 1] S8x1x192x192x192
  slices_S8x1x194x194x194_S8x1x192x192x192_0_0_1_0_1 : S8x1x194x194x194.Slices ![0, 0, 1, 0, 1] S8x1x192x192x192
  slices_S8x1x194x194x194_S8x1x192x192x192_0_0_1_2_1 : S8x1x194x194x194.Slices ![0, 0, 1, 2, 1] S8x1x192x192x192
  slices_S8x1x194x194x194_S8x1x192x192x192_0_0_1_1_0 : S8x1x194x194x194.Slices ![0, 0, 1, 1, 0] S8x1x192x192x192
  slices_S8x1x194x194x194_S8x1x192x192x192_0_0_1_1_2 : S8x1x194x194x194.Slices ![0, 0, 1, 1, 2] S8x1x192x192x192
  bcast_S_S8x1x192x192x192 : S_.BroadcastsInDim S8x1x192x192x192 (![] : Fin 0 → Fin S8x1x192x192x192.rank)

variable [Facts₀]

class Facts : Prop extends Facts₀ where

variable [Facts]
-- ==== Proof.LibSharedFrame.lean ====
/-
  The frame run of a pipelined kernel that has no semaphore of its own and whose windows may SHARE AN ARRAY.

  One array may be handed to a kernel through several input windows (the same matrix read once by row block `i` and
  once by row block `j`, say).  The buffer behind that array is then held once, at the full share, when the region is
  entered, and the proof data hold each window's array at a share of its own; how the full share is dealt among the
  windows is the one extra obligation (`hsplit`).  Everything else is as for distinct arrays: the body obligation at
  every grid point, the program's shape up to the region, and an invariant that the scoped buffers no window stages
  yield before the first point and give back after the last.  The conclusion is the usual one: after every weakly fair
  execution each window's array holds what the proof data compute for it after the last point, and every unscoped
  buffer that is no window's array holds what it held when the region was entered.
-/
import Idealize.ShloMosaic.Lib.Pipeline.Frame

noncomputable section

namespace Cert.SharedFrame

open Idealize.ShloMosaic Idealize.ShloMosaic.Pipeline Idealize.ShloMosaic.Rounds
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

include hinj hw in
/-- The frame run when windows may share an array: from the body obligation, the layout facts that do not ask the
    arrays to be distinct, the program's shape up to the region (`hmain`), the dealing of each shared buffer's full
    share among the windows on it (`hsplit`), and an invariant exchanged with the unstaged scoped buffers at the two
    ends (`hin`, `hout`), every weakly fair execution terminates in a state where each window's array is what the
    proof data compute after the last point and every other unscoped buffer is as the region found it. -/
theorem θ_run_frame_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => (show _ ⊢ (scopedRest (cfgs p).spec c : sProp 𝕄) from by iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.SharedFrame

end
-- ==== Proof.FrameK.lean ====
/-
  The frame run of the kernel as printed, at any float values: a three-dimensional seven-point stencil computed slab by slab.

  The program pads its argument by one zero on each side of the two innermost axes on the host and hands the padded
  array to one pipelined region THREE times: as slabs of 24 consecutive depth planes (window 0), as the single plane
  just below each slab (window 1, clamped at the bottom) and as the single plane just above it (window 2, clamped at
  the top).  The three input windows therefore share one array, whose buffer is dealt among them in three shares; the
  fourth window is the result, written back slab by slab.  At every grid point the body loads the three blocks,
  computes, and stores the result slab in three pieces — depth row 0, depth row 23 and depth rows 1 … 22 — which
  together tile the staging buffer; what the buffer then holds is the canonical overlay of the three pieces, whatever
  it held before.  From the body's triple at a generic point the launch theorem for windows that share an array
  gives the run: every weakly fair execution terminates, the result array ends as the slab-by-slab overwrite the proof
  data compute, and the argument array ends as it began.
-/
import proofs.«134238_j14998025798278_1_alg».proof.Proof.Gen.Kernel.Launch
import proofs.«134238_j14998025798278_1_alg».proof.Proof.Gen.Kernel.Skeleton
import proofs.«134238_j14998025798278_1_alg».proof.Proof.Gen.Kernel.Points
import proofs.«134238_j14998025798278_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The buffers of core `c` when the region is entered: the launch contents after the host operations (the zero
    constant, its conversion to a float, the padding). -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program up to the region: the two stretches of host operations, then the region's entry. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place: the slab window, -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the plane below, -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and the plane above. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole slab buffer, the whole plane buffer, and the three pieces of the result buffer: depth row 0, depth
    row 23, depth rows 1 … 22. -/
abbrev rSlab : Rect S1x1x24x194x194 := Rect.unit (s := S1x1x24x194x194) ![0, 0, 0, 0, 0] S1x1x24x194x194.size Gen.inb_S1x1x24x194x194_S1x1x24x194x194_0_0_0_0_0
abbrev rPlane : Rect S1x1x1x194x194 := Rect.unit (s := S1x1x1x194x194) ![0, 0, 0, 0, 0] S1x1x1x194x194.size Gen.inb_S1x1x1x194x194_S1x1x1x194x194_0_0_0_0_0
abbrev rFirst : Rect S1x1x24x192x192 := Rect.unit (s := S1x1x24x192x192) ![0, 0, 0, 0, 0] S1x1x1x192x192.size Gen.inb_S1x1x24x192x192_S1x1x1x192x192_0_0_0_0_0
abbrev rLast : Rect S1x1x24x192x192 := Rect.unit (s := S1x1x24x192x192) ![0, 0, 23, 0, 0] S1x1x1x192x192.size Gen.inb_S1x1x24x192x192_S1x1x1x192x192_0_0_23_0_0
abbrev rMid : Rect S1x1x24x192x192 := Rect.unit (s := S1x1x24x192x192) ![0, 0, 1, 0, 0] S1x1x22x192x192.size Gen.inb_S1x1x24x192x192_S1x1x22x192x192_0_0_1_0_0

/-! ## What the body leaves in the result window's buffer -/

/-- The three stores as pieces, last first: rows 1 … 22, row 23, row 0, each payload a function of the three input
    blocks (and, for the two boundary rows, of the grid point, which decides whether the neighbouring plane counts). -/
def pieces (i : grid0.Coords) (x0 : Vec F S1x1x24x194x194 .f32) (x1 : Vec F S1x1x1x194x194 .f32) (x2 : Vec F S1x1x1x194x194 .f32) :
    List (View.Piece (Elt F) S1x1x24x192x192 .f32) :=
  [⟨rMid, k0_pay2 (k0_pay4 (View.ld x0 rSlab)) (k0_pay5 (View.ld x0 rSlab))⟩,
   ⟨rLast, k0_pay1 (k0_pay4 (View.ld x0 rSlab)) (k0_pay7 i (View.ld x2 rPlane)) (k0_pay9 (View.ld x0 rSlab))⟩,
   ⟨rFirst, k0_pay8 i (View.ld x0 rSlab) (View.ld x1 rPlane)⟩]

/-- The result buffer after the body: the overlay of the three pieces. -/
def out0_3 (i : grid0.Coords) (x0 : Vec F S1x1x24x194x194 .f32) (x1 : Vec F S1x1x1x194x194 .f32) (x2 : Vec F S1x1x1x194x194 .f32) : Vec F S1x1x24x192x192 .f32 :=
  View.canon (pieces i x0 x1 x2)

/-- Cut into single depth rows the three pieces tile the buffer, so they cover it. -/
theorem cover0_3 (i : grid0.Coords) (x0 : Vec F S1x1x24x194x194 .f32) (x1 : Vec F S1x1x1x194x194 .f32) (x2 : Vec F S1x1x1x194x194 .f32) (y : S1x1x24x192x192.Idx) :
    ∃ pc ∈ pieces i x0 x1 x2, y ∈ pc.1.set :=
  View.cover_of_tiledBy (pieces i x0 x1 x2) ![1, 1, 1, 192, 192] (by sl_kernel_rfl) y

/-! ## The body's triple -/

set_option maxHeartbeats 4000000 in
/-- The kernel body on whole staging memrefs, the three input buffers at read contents `x0 x1 x2` and the result
    buffer at anything, runs to a state with the inputs as they were and the result buffer at `out0_3`. -/
theorem sound_kernel (c : Dev nD) (E : Set ℕ) (i : grid0.Coords)
    (arg2 : Memref sig .tc .vmem S1x1x24x194x194 .f32) (harg2 : arg2.IsWhole) (arg3 : Memref sig .tc .vmem S1x1x1x194x194 .f32) (harg3 : arg3.IsWhole)
    (arg4 : Memref sig .tc .vmem S1x1x1x194x194 .f32) (harg4 : arg4.IsWhole) (arg5 : Memref sig .tc .vmem S1x1x24x192x192 .f32) (harg5 : arg5.IsWhole)
    (x0 : Vec F S1x1x24x194x194 .f32) (x1 : Vec F S1x1x1x194x194 .f32) (x2 : Vec F S1x1x1x194x194 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 i x0 x1 x2)) -∗ K ⟨⟩))
      ⊢ wp frame (wpE (defs₀ (F := F)) Variants.none c none) E (cc0__lap3d_kernel i arg2 harg2 arg3 harg3 arg4 harg4 arg5 harg5) K := by
  simp only [cc0__lap3d_kernel_eq_skeleton]; unfold cc0__lap3d_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _)

/-! ## The pipeline's proof data -/

/-- The proof data on core `c`: the arrays as the region finds them; after the body at point `t` each input buffer
    at its block and the result buffer at the overlay of the three pieces over the input blocks; the invariant the
    scoped buffers no window stages (there are none); nothing owed; the padded array's buffer dealt in three shares
    among the three input windows, the result's held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (grid0.coords t) (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the three input buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## Dealing the padded array's buffer among the three input windows -/

/-- The two buffers behind the four windows' arrays, each whole at the full share, make the proof data's arrays at
    entry: the padded array's buffer is halved, and its second half halved again, one share per input window; the
    result's buffer is handed over whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0]
  rw [show Finset.univ.image (Pipeline.arrRef spec0) = {main_v0, main_v1} from by decide]
  rw [BI.bigSep_insert (by decide), BI.bigSep_singleton]
  have e0 : (Dat.share (dats m 0 c) 0) = fullShare.left := rfl
  have e1 : (Dat.share (dats m 0 c) 1) = fullShare.right.left := rfl
  have e2 : (Dat.share (dats m 0 c) 2) = fullShare.right.right := rfl
  have e3 : (Dat.share (dats m 0 c) 3) = fullShare := rfl
  rw [e0, e1, e2, e3, (arr_whole0 0).set_eq_univ, (arr_whole0 3).set_eq_univ]
  show iprop((_ : sProp 𝕄) ∗ _) ⊢ _
  iintro ⟨H0, H1⟩
  ihave H0' := (pointsTo_share (PosShare.mem_left_op_right fullShare)).1 $$ H0
  icases H0' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  iexact H1

/-! ## The run and the frame -/

set_option backward.isDefEq.respectTransparency.types false in
/-- Every weakly fair execution of the program terminates, and every final state has each window's array at what the
    proof data compute after the last point and every other unscoped buffer as the region found it. -/
theorem run_main : θ_run defs (onTc (τ := τ) (main (F := F))) (s₀ m ρ) (Pipeline.FramePost cfgs (dats m) 0 (V m)) :=
  Cert.SharedFrame.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- The argument is no window's array and is not scoped: it bypasses the region. -/
theorem arg0_rest : main_arg0 ∈ Pipeline.restRefs sig spec0 :=
  Pipeline.mem_restRefs_of main_arg0 rfl (by decide)

/-- THE FRAME: the program runs to the end, faults nowhere, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 arg0_rest).trans (V_main_arg0 m c)) (run_main m ρ)

end Cert.Kernel.Fr

end
-- ==== Proof.FrameKI.lean ====
/-
  The frame run of the idealized kernel: a three-dimensional seven-point stencil computed slab by slab.

  The program pads its argument by one zero on each side of the two innermost axes on the host and hands the padded
  array to one pipelined region THREE times: as slabs of 24 consecutive depth planes (window 0), as the single plane
  just below each slab (window 1, clamped at the bottom) and as the single plane just above it (window 2, clamped at
  the top).  The three input windows therefore share one array, whose buffer is dealt among them in three shares; the
  fourth window is the result, written back slab by slab.  At every grid point the body loads the three blocks,
  computes, and stores the result slab in three pieces — depth row 0, depth row 23 and depth rows 1 … 22 — which
  together tile the staging buffer; what the buffer then holds is the canonical overlay of the three pieces, whatever
  it held before.  From the body's triple at a generic point the launch theorem for windows that share an array
  gives the run: every weakly fair execution terminates, the result array ends as the slab-by-slab overwrite the proof
  data compute, and the argument array ends as it began.
-/
import proofs.«134238_j14998025798278_1_alg».proof.Proof.Gen.KernelIdeal.Launch
import proofs.«134238_j14998025798278_1_alg».proof.Proof.Gen.KernelIdeal.Skeleton
import proofs.«134238_j14998025798278_1_alg».proof.Proof.Gen.KernelIdeal.Points
import proofs.«134238_j14998025798278_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The buffers of core `c` when the region is entered: the launch contents after the host operations (the zero
    constant, its conversion to a float, the padding). -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program up to the region: the two stretches of host operations, then the region's entry. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the
    region-entry contents and whose body leaves the block in place: the slab window, -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the plane below, -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and the plane above. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole slab buffer, the whole plane buffer, and the three pieces of the result buffer: depth row 0, depth
    row 23, depth rows 1 … 22. -/
abbrev rSlab : Rect S1x1x24x194x194 := Rect.unit (s := S1x1x24x194x194) ![0, 0, 0, 0, 0] S1x1x24x194x194.size Gen.inb_S1x1x24x194x194_S1x1x24x194x194_0_0_0_0_0
abbrev rPlane : Rect S1x1x1x194x194 := Rect.unit (s := S1x1x1x194x194) ![0, 0, 0, 0, 0] S1x1x1x194x194.size Gen.inb_S1x1x1x194x194_S1x1x1x194x194_0_0_0_0_0
abbrev rFirst : Rect S1x1x24x192x192 := Rect.unit (s := S1x1x24x192x192) ![0, 0, 0, 0, 0] S1x1x1x192x192.size Gen.inb_S1x1x24x192x192_S1x1x1x192x192_0_0_0_0_0
abbrev rLast : Rect S1x1x24x192x192 := Rect.unit (s := S1x1x24x192x192) ![0, 0, 23, 0, 0] S1x1x1x192x192.size Gen.inb_S1x1x24x192x192_S1x1x1x192x192_0_0_23_0_0
abbrev rMid : Rect S1x1x24x192x192 := Rect.unit (s := S1x1x24x192x192) ![0, 0, 1, 0, 0] S1x1x22x192x192.size Gen.inb_S1x1x24x192x192_S1x1x22x192x192_0_0_1_0_0

/-! ## What the body leaves in the result window's buffer -/

/-- The three stores as pieces, last first: rows 1 … 22, row 23, row 0, each payload a function of the three input
    blocks (and, for the two boundary rows, of the grid point, which decides whether the neighbouring plane counts). -/
def pieces (i : grid0.Coords) (x0 : Vec F S1x1x24x194x194 .f32) (x1 : Vec F S1x1x1x194x194 .f32) (x2 : Vec F S1x1x1x194x194 .f32) :
    List (View.Piece (Elt F) S1x1x24x192x192 .f32) :=
  [⟨rMid, k0_pay2 (k0_pay4 (View.ld x0 rSlab)) (k0_pay5 (View.ld x0 rSlab))⟩,
   ⟨rLast, k0_pay1 (k0_pay4 (View.ld x0 rSlab)) (k0_pay7 i (View.ld x2 rPlane)) (k0_pay9 (View.ld x0 rSlab))⟩,
   ⟨rFirst, k0_pay8 i (View.ld x0 rSlab) (View.ld x1 rPlane)⟩]

/-- The result buffer after the body: the overlay of the three pieces. -/
def out0_3 (i : grid0.Coords) (x0 : Vec F S1x1x24x194x194 .f32) (x1 : Vec F S1x1x1x194x194 .f32) (x2 : Vec F S1x1x1x194x194 .f32) : Vec F S1x1x24x192x192 .f32 :=
  View.canon (pieces i x0 x1 x2)

/-- Cut into single depth rows the three pieces tile the buffer, so they cover it. -/
theorem cover0_3 (i : grid0.Coords) (x0 : Vec F S1x1x24x194x194 .f32) (x1 : Vec F S1x1x1x194x194 .f32) (x2 : Vec F S1x1x1x194x194 .f32) (y : S1x1x24x192x192.Idx) :
    ∃ pc ∈ pieces i x0 x1 x2, y ∈ pc.1.set :=
  View.cover_of_tiledBy (pieces i x0 x1 x2) ![1, 1, 1, 192, 192] (by sl_kernel_rfl) y

/-! ## The body's triple -/

set_option maxHeartbeats 4000000 in
/-- The kernel body on whole staging memrefs, the three input buffers at read contents `x0 x1 x2` and the result
    buffer at anything, runs to a state with the inputs as they were and the result buffer at `out0_3`. -/
theorem sound_kernel (c : Dev nD) (E : Set ℕ) (i : grid0.Coords)
    (arg2 : Memref sig .tc .vmem S1x1x24x194x194 .f32) (harg2 : arg2.IsWhole) (arg3 : Memref sig .tc .vmem S1x1x1x194x194 .f32) (harg3 : arg3.IsWhole)
    (arg4 : Memref sig .tc .vmem S1x1x1x194x194 .f32) (harg4 : arg4.IsWhole) (arg5 : Memref sig .tc .vmem S1x1x24x192x192 .f32) (harg5 : arg5.IsWhole)
    (x0 : Vec F S1x1x24x194x194 .f32) (x1 : Vec F S1x1x1x194x194 .f32) (x2 : Vec F S1x1x1x194x194 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 i x0 x1 x2)) -∗ K ⟨⟩))
      ⊢ wp frame (wpE (defs₀ (F := F)) Variants.none c none) E (cc0__lap3d_kernel i arg2 harg2 arg3 harg3 arg4 harg4 arg5 harg5) K := by
  simp only [cc0__lap3d_kernel_eq_skeleton]; unfold cc0__lap3d_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _ _ _)

/-! ## The pipeline's proof data -/

/-- The proof data on core `c`: the arrays as the region finds them; after the body at point `t` each input buffer
    at its block and the result buffer at the overlay of the three pieces over the input blocks; the invariant the
    scoped buffers no window stages (there are none); nothing owed; the padded array's buffer dealt in three shares
    among the three input windows, the result's held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (grid0.coords t) (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the three input buffers hold their blocks, so the body's triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation (c : Dev nD) : BodyObligation (dats (F := F) m 0 c) (defs₀ (F := F)) Variants.none () Set.univ := fun t => by
  rw [bigSep_W0, bigSep_W0]
  exact sound_body m c t

/-! ## Dealing the padded array's buffer among the three input windows -/

/-- The two buffers behind the four windows' arrays, each whole at the full share, make the proof data's arrays at
    entry: the padded array's buffer is halved, and its second half halved again, one share per input window; the
    result's buffer is handed over whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0]
  rw [show Finset.univ.image (Pipeline.arrRef spec0) = {main_v0, main_v1} from by decide]
  rw [BI.bigSep_insert (by decide), BI.bigSep_singleton]
  have e0 : (Dat.share (dats m 0 c) 0) = fullShare.left := rfl
  have e1 : (Dat.share (dats m 0 c) 1) = fullShare.right.left := rfl
  have e2 : (Dat.share (dats m 0 c) 2) = fullShare.right.right := rfl
  have e3 : (Dat.share (dats m 0 c) 3) = fullShare := rfl
  rw [e0, e1, e2, e3, (arr_whole0 0).set_eq_univ, (arr_whole0 3).set_eq_univ]
  show iprop((_ : sProp 𝕄) ∗ _) ⊢ _
  iintro ⟨H0, H1⟩
  ihave H0' := (pointsTo_share (PosShare.mem_left_op_right fullShare)).1 $$ H0
  icases H0' with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  iexact H1

/-! ## The run and the frame -/

set_option backward.isDefEq.respectTransparency.types false in
/-- Every weakly fair execution of the program terminates, and every final state has each window's array at what the
    proof data compute after the last point and every other unscoped buffer as the region found it. -/
theorem run_main : θ_run defs (onTc (τ := τ) (main (F := F))) (s₀ m ρ) (Pipeline.FramePost cfgs (dats m) 0 (V m)) :=
  Cert.SharedFrame.θ_run_frame_shared cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- The argument is no window's array and is not scoped: it bypasses the region. -/
theorem arg0_rest : main_arg0 ∈ Pipeline.restRefs sig spec0 :=
  Pipeline.mem_restRefs_of main_arg0 rfl (by decide)

/-- THE FRAME: the program runs to the end, faults nowhere, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 arg0_rest).trans (V_main_arg0 m c)) (run_main m ρ)

end Cert.KernelIdeal.Fr

end
-- ==== Proof.Spec.lean ====
/-
  The seven-point Laplacian of a five-axis array with a zero border, index by index, on the extended reals.

  The array `x` has shape [8, 1, 192, 192, 192]; the last three axes are the spatial ones.  `pz x b d h w` reads `x`
  through a border of one zero on each side of each spatial axis: the padded coordinates `d h w` range over 0 … 193,
  coordinate `k` of the padded array being coordinate `k - 1` of `x` when `1 ≤ k ≤ 192`, and every entry with a coordinate
  on the border is zero.  The Laplacian at the spatial point `(d, h, w)` of `x` (padded point `(d+1, h+1, w+1)`) is
  the sum of the six neighbours minus six times the centre.  Two orders of summation are stated: the six neighbours
  first, depth pair leading (`lapR`), and the four in-plane neighbours minus the centre term first, the two depth
  neighbours added last (`lapK`).  Addition on the extended reals is commutative and associative and a difference is
  the sum with the negative, so the two orders give one value (`lapK_eq_lapR`) with no finiteness assumption.
-/
import Idealize.ShloMosaic.PureOps.Ideal
import Idealize.ShloMosaic.Lib.ValueIdx

noncomputable section

namespace Cert.Lap

open Idealize.ShloMosaic Idealize.ShloMosaic.ValueIdx

/-- The array's shape. -/
abbrev SX : Shape := ⟨5, ![8, 1, 192, 192, 192]⟩

/-- `x` read through a zero border of width one on the three spatial axes, at padded coordinates. -/
def pz (x : SX.Idx → EReal) (b : Fin 8) (d h w : ℕ) : EReal :=
  if hd : (1 ≤ d ∧ d ≤ 192) ∧ (1 ≤ h ∧ h ≤ 192) ∧ (1 ≤ w ∧ w ≤ 192) then
    x (ix5 b (0 : Fin 1) (⟨d - 1, by omega⟩ : Fin 192) (⟨h - 1, by omega⟩ : Fin 192) (⟨w - 1, by omega⟩ : Fin 192))
  else 0

/-- Inside the border the padded array is `x`. -/
theorem pz_inside (x : SX.Idx → EReal) (b : Fin 8) (d h w : Fin 192) :
    pz x b (d.val + 1) (h.val + 1) (w.val + 1) = x (ix5 b (0 : Fin 1) d h w) := by
  unfold pz
  rw [dif_pos ⟨⟨by omega, by omega⟩, ⟨by omega, by omega⟩, ⟨by omega, by omega⟩⟩]
  rfl

/-- On the border the padded array is zero. -/
theorem pz_border (x : SX.Idx → EReal) (b : Fin 8) (d h w : ℕ)
    (hb : d = 0 ∨ 193 ≤ d ∨ h = 0 ∨ 193 ≤ h ∨ w = 0 ∨ 193 ≤ w) : pz x b d h w = 0 := by
  unfold pz
  rw [dif_neg]
  rintro ⟨⟨h1, h2⟩, ⟨h3, h4⟩, ⟨h5, h6⟩⟩
  omega

/-- The factor six, as the f32 word both programs spell. -/
def six : EReal := Ideal.ofBits .f32 0x40C00000#32

/-- The Laplacian, the six neighbours summed first (depth, then height, then width), then the centre term taken off. -/
def lapR (x : SX.Idx → EReal) (b : Fin 8) (d h w : Fin 192) : EReal :=
  (((((pz x b d.val (h.val + 1) (w.val + 1) + pz x b (d.val + 2) (h.val + 1) (w.val + 1))
        + pz x b (d.val + 1) h.val (w.val + 1)) + pz x b (d.val + 1) (h.val + 2) (w.val + 1))
      + pz x b (d.val + 1) (h.val + 1) w.val) + pz x b (d.val + 1) (h.val + 1) (w.val + 2))
    - six * pz x b (d.val + 1) (h.val + 1) (w.val + 1)

/-- The Laplacian, the in-plane part first (height pair, width pair, minus the centre term), the two depth neighbours
    added last. -/
def lapK (x : SX.Idx → EReal) (b : Fin 8) (d h w : Fin 192) : EReal :=
  ((((((pz x b (d.val + 1) h.val (w.val + 1) + pz x b (d.val + 1) (h.val + 2) (w.val + 1))
        + pz x b (d.val + 1) (h.val + 1) w.val) + pz x b (d.val + 1) (h.val + 1) (w.val + 2))
      - six * pz x b (d.val + 1) (h.val + 1) (w.val + 1))
    + pz x b d.val (h.val + 1) (w.val + 1)) + pz x b (d.val + 2) (h.val + 1) (w.val + 1))

/-- The two orders of summation agree on the extended reals: a difference is a sum with the negative, and sums may
    be regrouped and reordered freely. -/
theorem lapK_eq_lapR (x : SX.Idx → EReal) (b : Fin 8) (d h w : Fin 192) : lapK x b d h w = lapR x b d h w := by
  unfold lapK lapR
  simp only [sub_eq_add_neg]
  ac_rfl

/-- The Laplacian as an array: the reference order at every index. -/
def lapArr (x : SX.Idx → EReal) : SX.Idx → EReal := fun i => lapR x (i 0) (i 2) (i 3) (i 4)

end Cert.Lap

end
-- ==== Proof.LibPadRead.lean ====
/-
  A padded array read at an index (`stablehlo.pad` with no interior padding).

  `pad t lo hi interior x v` holds, at a result index `j`, the operand `x` where `j` minus the low padding is an
  operand index on every axis, and the padding value `v` elsewhere. With no interior padding the two cases are
  plain intervals: `j` is inside when `lo a ≤ j a < lo a + size a` on every axis `a`, and then reads `x` at
  `j - lo`; it is outside as soon as ONE axis leaves its interval, and then reads the padding value.
  The caller names the operand index by its coordinates and owes one linear equation per axis.
-/
import Idealize.ShloMosaic.PureOps.Ideal

namespace Cert.Lib.PadRead

open Idealize.ShloMosaic

variable {s t u : Shape} {α : Type}

/-- INSIDE: if on every axis the result coordinate is the low padding plus an operand coordinate `k a` (and the
    axis has no interior padding), the padded array reads the operand at `k`. -/
theorem pad_apply_inside (lo hi interior : Fin s.rank → Nat) (x : s.Idx → α) (v : u.Idx → α)
    (h : s.Pads lo hi interior t) (hu : 0 < u.numel) (j : t.Idx) (k : s.Idx)
    (hint : ∀ a, interior a = 0)
    (hk : ∀ a : Fin s.rank, (j (a.cast h.1)).val = lo a + (k a).val) :
    pad t lo hi interior x v h hu j = x k := by
  unfold pad
  have hin : ∀ a : Fin s.rank, lo a ≤ (j (a.cast h.1)).val
      ∧ ((j (a.cast h.1)).val - lo a) % (interior a + 1) = 0
      ∧ ((j (a.cast h.1)).val - lo a) / (interior a + 1) < s.size a := fun a => by
    rw [hint a, hk a, Nat.add_sub_cancel_left, Nat.zero_add, Nat.mod_one, Nat.div_one]
    exact ⟨Nat.le_add_right _ _, rfl, (k a).isLt⟩
  rw [dif_pos hin]
  refine congrArg x (funext fun a => Fin.ext ?_)
  show ((j (a.cast h.1)).val - lo a) / (interior a + 1) = (k a).val
  rw [hint a, hk a, Nat.add_sub_cancel_left, Nat.zero_add, Nat.div_one]

/-- OUTSIDE: if on ONE axis (without interior padding) the result coordinate is below the low padding or at or
    past the low padding plus the operand's extent, the padded array reads the padding value. -/
theorem pad_apply_outside (lo hi interior : Fin s.rank → Nat) (x : s.Idx → α) (v : u.Idx → α)
    (h : s.Pads lo hi interior t) (hu : 0 < u.numel) (j : t.Idx) (a : Fin s.rank)
    (hint : interior a = 0)
    (ha : (j (a.cast h.1)).val < lo a ∨ lo a + s.size a ≤ (j (a.cast h.1)).val) :
    pad t lo hi interior x v h hu j = v (Shape.Idx.first hu) := by
  unfold pad
  rw [dif_neg]
  intro hin
  obtain ⟨h1, -, h3⟩ := hin a
  rw [hint, Nat.zero_add, Nat.div_one] at h3
  omega

end Cert.Lib.PadRead
-- ==== Proof.PayloadAt.lean ====
/-
  The kernel body's three stored values, read at an index.

  The body loads a slab of 24 padded planes (shape [1, 1, 24, 194, 194]) and the two padded planes next to it, one
  below and one above (shape [1, 1, 1, 194, 194] each).  From the slab it forms, for every plane `r` and every interior
  point `(h, w)`, the in-plane part of the Laplacian: the four in-plane neighbours of the padded point
  `(h + 1, w + 1)` added in the order height pair, width pair, minus six times the centre (`inPlane`).  It then stores
  three values: for plane 0 the in-plane part plus the plane below (replaced by zero at the first slab of the depth
  axis) plus plane 1; for plane 23 the in-plane part plus plane 22 plus the plane above (replaced by zero at the last
  slab); and for planes 1 … 22 the in-plane part plus the two neighbouring planes of the slab.

  Every step between the loaded blocks and a stored value is either pointwise (a sum, a difference, a product, a
  broadcast constant, a choice between two arrays on one condition) or a change of layout that reads one element of
  its operand: a slice reads its operand at the index shifted by the slice's offsets, and a reshape that only adds or
  drops leading axes of extent one reads the element with the same remaining coordinates, because the row-major
  position does not change.  The lemmas below read each layout step at coordinates, then each intermediate value, then
  the three stored values.
-/
import proofs.«134238_j14998025798278_1_alg».proof.Proof.Gen.KernelIdeal.Skeleton
import proofs.«134238_j14998025798278_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadAt

open Cert.KernelIdeal Cert.KernelIdeal.Gen Idealize.ShloMosaic Idealize.ShloMosaic.ValueIdx

/-! ## Layout steps at coordinates -/

section Layout
variable {α : Type}

/-- Dropping two leading unit axes: a `[1, 1, m, a, b]` array viewed as `[m, a, b]` reads `(0, 0, k, i, j)` at `(k, i, j)`. -/
theorem cast_11mab_mab {m a b : ℕ} (x : (⟨5, ![1, 1, m, a, b]⟩ : Shape).Idx → α)
    (h : (⟨5, ![1, 1, m, a, b]⟩ : Shape).ShapeCasts ⟨3, ![m, a, b]⟩) (k : Fin m) (i : Fin a) (j : Fin b) :
    shapeCast ⟨3, ![m, a, b]⟩ x h (ix3 k i j) = x (ix5 (0 : Fin 1) (0 : Fin 1) k i j) :=
  shapeCast_apply x h _ _ (by
    rw [Shape.rowMajor_val_five, Shape.rowMajor_val_three]
    show (((0 * 1 + 0) * m + k.val) * a + i.val) * b + j.val = (k.val * a + i.val) * b + j.val
    simp)

/-- Adding two leading unit axes: an `[m, a, b]` array viewed as `[1, 1, m, a, b]` reads `(k, i, j)` at `(u, v, k, i, j)`. -/
theorem cast_mab_11mab {m a b : ℕ} (x : (⟨3, ![m, a, b]⟩ : Shape).Idx → α)
    (h : (⟨3, ![m, a, b]⟩ : Shape).ShapeCasts ⟨5, ![1, 1, m, a, b]⟩) (u v : Fin 1) (k : Fin m) (i : Fin a) (j : Fin b) :
    shapeCast ⟨5, ![1, 1, m, a, b]⟩ x h (ix5 u v k i j) = x (ix3 k i j) :=
  shapeCast_apply x h _ _ (by
    have hu : u.val = 0 := by omega
    have hv : v.val = 0 := by omega
    rw [Shape.rowMajor_val_five, Shape.rowMajor_val_three]
    show (k.val * a + i.val) * b + j.val = (((u.val * 1 + v.val) * m + k.val) * a + i.val) * b + j.val
    rw [hu, hv]
    simp)

/-- Dropping three leading unit axes: a `[1, 1, 1, a, b]` array viewed as `[a, b]` reads `(0, 0, 0, i, j)` at `(i, j)`. -/
theorem cast_111ab_ab {a b : ℕ} (x : (⟨5, ![1, 1, 1, a, b]⟩ : Shape).Idx → α)
    (h : (⟨5, ![1, 1, 1, a, b]⟩ : Shape).ShapeCasts ⟨2, ![a, b]⟩) (i : Fin a) (j : Fin b) :
    shapeCast ⟨2, ![a, b]⟩ x h (ix2 i j) = x (ix5 (0 : Fin 1) (0 : Fin 1) (0 : Fin 1) i j) :=
  shapeCast_apply x h _ _ (by
    rw [Shape.rowMajor_val_five, Shape.rowMajor_val_two]
    show (((0 * 1 + 0) * 1 + 0) * a + i.val) * b + j.val = i.val * b + j.val
    simp)

/-- A slice of a rank-3 array reads the operand at the index whose coordinates are the offsets plus the result's. -/
theorem slice3_at {n0 n1 n2 m0 m1 m2 : ℕ} (off : Fin 3 → ℕ) (x : (⟨3, ![n0, n1, n2]⟩ : Shape).Idx → α)
    (h : (⟨3, ![n0, n1, n2]⟩ : Shape).Slices off ⟨3, ![m0, m1, m2]⟩) (k : Fin m0) (i : Fin m1) (j : Fin m2)
    (k' : Fin n0) (i' : Fin n1) (j' : Fin n2)
    (hk : k'.val = off 0 + k.val) (hi : i'.val = off 1 + i.val) (hj : j'.val = off 2 + j.val) :
    extractStridedSlice ⟨3, ![m0, m1, m2]⟩ off x h (ix3 k i j) = x (ix3 k' i' j') :=
  extractStridedSlice_apply off x h _ _ (fun a => match a with
    | ⟨0, _⟩ => hk | ⟨1, _⟩ => hi | ⟨2, _⟩ => hj)

/-- A slice of a rank-2 array reads the operand at the index whose coordinates are the offsets plus the result's. -/
theorem slice2_at {n0 n1 m0 m1 : ℕ} (off : Fin 2 → ℕ) (x : (⟨2, ![n0, n1]⟩ : Shape).Idx → α)
    (h : (⟨2, ![n0, n1]⟩ : Shape).Slices off ⟨2, ![m0, m1]⟩) (i : Fin m0) (j : Fin m1)
    (i' : Fin n0) (j' : Fin n1) (hi : i'.val = off 0 + i.val) (hj : j'.val = off 1 + j.val) :
    extractStridedSlice ⟨2, ![m0, m1]⟩ off x h (ix2 i j) = x (ix2 i' j') :=
  extractStridedSlice_apply off x h _ _ (fun a => match a with
    | ⟨0, _⟩ => hi | ⟨1, _⟩ => hj)

end Layout

/-! ## The condition on the depth-slab coordinate -/

/-- A choice whose condition compares the 32-bit word of a number below 8 with the word 0 is the `if` on the number. -/
theorem select_eq_zero {α : Type} (n : ℕ) (hn : n < 8) (A B : α) :
    Scalar.select (Scalar.cmpi .eq (BitVec.ofNat 32 n) 0#32) A B = if n = 0 then A else B := by
  interval_cases n <;> rfl

/-- A choice whose condition compares the 32-bit word of a number below 8 with the word 7 is the `if` on the number. -/
theorem select_eq_seven {α : Type} (n : ℕ) (hn : n < 8) (A B : α) :
    Scalar.select (Scalar.cmpi .eq (BitVec.ofNat 32 n) 7#32) A B = if n = 7 then A else B := by
  interval_cases n <;> rfl

/-! ## The intermediate values at an index -/

/-- The in-plane part of the Laplacian at plane `r` of the slab and interior point `(h, w)`: around the padded point
    `(h + 1, w + 1)`, the two height neighbours, then the two width neighbours, minus six times the centre. -/
def inPlane (v2 : Vec Ideal S1x1x24x194x194 .f32) (r : Fin 24) (h w : Fin 192) : EReal :=
  (((v2 (ix5 (0 : Fin 1) (0 : Fin 1) r (⟨h.val, by omega⟩ : Fin 194) (⟨w.val + 1, by omega⟩ : Fin 194))
        + v2 (ix5 (0 : Fin 1) (0 : Fin 1) r (⟨h.val + 2, by omega⟩ : Fin 194) (⟨w.val + 1, by omega⟩ : Fin 194)))
      + v2 (ix5 (0 : Fin 1) (0 : Fin 1) r (⟨h.val + 1, by omega⟩ : Fin 194) (⟨w.val, by omega⟩ : Fin 194)))
    + v2 (ix5 (0 : Fin 1) (0 : Fin 1) r (⟨h.val + 1, by omega⟩ : Fin 194) (⟨w.val + 2, by omega⟩ : Fin 194)))
  - Cert.Lap.six * v2 (ix5 (0 : Fin 1) (0 : Fin 1) r (⟨h.val + 1, by omega⟩ : Fin 194) (⟨w.val + 1, by omega⟩ : Fin 194))

/-- The slab with its two unit axes dropped reads the slab at the same plane and point. -/
theorem slab3_at (v2 : Vec Ideal S1x1x24x194x194 .f32) (r : Fin 24) (a b : Fin 194) :
    k0_pay3 (F := Ideal) v2 (ix3 r a b) = v2 (ix5 (0 : Fin 1) (0 : Fin 1) r a b) :=
  cast_11mab_mab v2 shapeCasts_S1x1x24x194x194_S24x194x194 r a b

/-- A window of the slab shifted by `(oh, ow)` in the plane reads the slab at the shifted point. -/
theorem slab_window_at (v2 : Vec Ideal S1x1x24x194x194 .f32) (oh ow : ℕ)
    (hs : S24x194x194.Slices ![0, oh, ow] S24x192x192) (r : Fin 24) (h w : Fin 192) (h' w' : Fin 194)
    (eh : h'.val = oh + h.val) (ew : w'.val = ow + w.val) :
    extractStridedSlice S24x192x192 ![0, oh, ow] (k0_pay3 (F := Ideal) v2) hs (ix3 r h w)
      = v2 (ix5 (0 : Fin 1) (0 : Fin 1) r h' w') :=
  (slice3_at ![0, oh, ow] (k0_pay3 (F := Ideal) v2) hs r h w r h' w' (Nat.zero_add _).symm eh ew).trans
    (slab3_at v2 r h' w')

/-- The interior of the slab: plane `r` at interior point `(h, w)` is the slab at the padded point `(h + 1, w + 1)`. -/
theorem centre_at (v2 : Vec Ideal S1x1x24x194x194 .f32) (r : Fin 24) (h w : Fin 192) :
    k0_pay4 (F := Ideal) v2 (ix3 r h w)
      = v2 (ix5 (0 : Fin 1) (0 : Fin 1) r (⟨h.val + 1, by omega⟩ : Fin 194) (⟨w.val + 1, by omega⟩ : Fin 194)) :=
  slab_window_at v2 1 1 slices_S24x194x194_o0_1_1_S24x192x192 r h w _ _ (Nat.add_comm _ _) (Nat.add_comm _ _)

/-- The in-plane value the body computes for every plane of the slab is `inPlane`. -/
theorem inPlane_at (v2 : Vec Ideal S1x1x24x194x194 .f32) (r : Fin 24) (h w : Fin 192) :
    k0_pay5 (F := Ideal) v2 (ix3 r h w) = inPlane v2 r h w := by
  unfold k0_pay5 inPlane
  simp only [subf_apply, addf_apply, mulf_apply, broadcast_apply]
  rw [slab_window_at v2 0 1 slices_S24x194x194_o0_0_1_S24x192x192 r h w ⟨h.val, by omega⟩ ⟨w.val + 1, by omega⟩
        (Nat.zero_add _).symm (Nat.add_comm _ _),
      slab_window_at v2 2 1 slices_S24x194x194_o0_2_1_S24x192x192 r h w ⟨h.val + 2, by omega⟩ ⟨w.val + 1, by omega⟩
        (Nat.add_comm _ _) (Nat.add_comm _ _),
      slab_window_at v2 1 0 slices_S24x194x194_o0_1_0_S24x192x192 r h w ⟨h.val + 1, by omega⟩ ⟨w.val, by omega⟩
        (Nat.add_comm _ _) (Nat.zero_add _).symm,
      slab_window_at v2 1 2 slices_S24x194x194_o0_1_2_S24x192x192 r h w ⟨h.val + 1, by omega⟩ ⟨w.val + 2, by omega⟩
        (Nat.add_comm _ _) (Nat.add_comm _ _),
      centre_at]
  rfl

/-- The body's zero plane is zero everywhere. -/
theorem zeroPlane_at (j : S192x192.Idx) : k0_pay6 (F := Ideal) j = (0 : EReal) :=
  Ideal.ofBits_zero_f32

/-- The interior of a neighbouring plane: at `(h, w)` it is the plane at the padded point `(h + 1, w + 1)`. -/
theorem plane_window_at (v : Vec Ideal S1x1x1x194x194 .f32) (h w : Fin 192) :
    extractStridedSlice S192x192 ![1, 1] (shapeCast S194x194 v shapeCasts_S1x1x1x194x194_S194x194)
        slices_S194x194_o1_1_S192x192 (ix2 h w)
      = v (ix5 (0 : Fin 1) (0 : Fin 1) (0 : Fin 1) (⟨h.val + 1, by omega⟩ : Fin 194) (⟨w.val + 1, by omega⟩ : Fin 194)) :=
  (slice2_at ![1, 1] (shapeCast S194x194 v shapeCasts_S1x1x1x194x194_S194x194) slices_S194x194_o1_1_S192x192 h w
      ⟨h.val + 1, by omega⟩ ⟨w.val + 1, by omega⟩ (Nat.add_comm _ _) (Nat.add_comm _ _)).trans
    (cast_111ab_ab v shapeCasts_S1x1x1x194x194_S194x194 _ _)

/-- The plane above as the body uses it: zero at the last slab of the depth axis, the plane's interior elsewhere. -/
theorem above_at (i : grid0.Coords) (v6 : Vec Ideal S1x1x1x194x194 .f32) (h w : Fin 192) :
    k0_pay7 (F := Ideal) i v6 (ix2 h w)
      = if (i 1).val = 7 then (0 : EReal)
        else v6 (ix5 (0 : Fin 1) (0 : Fin 1) (0 : Fin 1) (⟨h.val + 1, by omega⟩ : Fin 194) (⟨w.val + 1, by omega⟩ : Fin 194)) := by
  have hi : (i 1).val < 8 := (i 1).isLt
  unfold k0_pay7
  dsimp only
  rw [select_eq_seven _ hi]
  by_cases h7 : (i 1).val = 7
  · rw [if_pos h7, if_pos h7]; exact zeroPlane_at _
  · rw [if_neg h7, if_neg h7]; exact plane_window_at v6 h w

/-- The in-plane value of the slab's last plane, as the body carries it. -/
theorem last_at (v2 : Vec Ideal S1x1x24x194x194 .f32) (u : Fin 1) (h w : Fin 192) :
    k0_pay9 (F := Ideal) v2 (ix3 u h w) = inPlane v2 (23 : Fin 24) h w :=
  (slice3_at ![23, 0, 0] (k0_pay5 (F := Ideal) v2) slices_S24x192x192_o23_0_0_S1x192x192 u h w (23 : Fin 24) h w
      (by have := u.isLt; show 23 = 23 + u.val; omega) (Nat.zero_add _).symm (Nat.zero_add _).symm).trans
    (inPlane_at v2 _ h w)

/-! ## The three stored values at an index -/

/-- PLANE 0 of the slab: the in-plane part, plus the plane below (zero at the first slab of the depth axis), plus
    plane 1. -/
theorem row0_at (i : grid0.Coords) (v2 : Vec Ideal S1x1x24x194x194 .f32) (v4 : Vec Ideal S1x1x1x194x194 .f32)
    (h w : Fin 192) :
    k0_pay8 (F := Ideal) i v2 v4 (ix5 (0 : Fin 1) (0 : Fin 1) (0 : Fin 1) h w)
      = (inPlane v2 (0 : Fin 24) h w
          + (if (i 1).val = 0 then (0 : EReal)
             else v4 (ix5 (0 : Fin 1) (0 : Fin 1) (0 : Fin 1) (⟨h.val + 1, by omega⟩ : Fin 194) (⟨w.val + 1, by omega⟩ : Fin 194))))
        + v2 (ix5 (0 : Fin 1) (0 : Fin 1) (1 : Fin 24) (⟨h.val + 1, by omega⟩ : Fin 194) (⟨w.val + 1, by omega⟩ : Fin 194)) := by
  have hi : (i 1).val < 8 := (i 1).isLt
  unfold k0_pay8
  dsimp only
  refine (cast_mab_11mab _ shapeCasts_S1x192x192_S1x1x1x192x192 0 0 0 h w).trans ?_
  simp only [addf_apply]
  rw [slice3_at ![0, 0, 0] (k0_pay5 (F := Ideal) v2) slices_S24x192x192_o0_0_0_S1x192x192 0 h w (0 : Fin 24) h w
        rfl (Nat.zero_add _).symm (Nat.zero_add _).symm,
      inPlane_at,
      slice3_at ![1, 0, 0] (k0_pay4 (F := Ideal) v2) slices_S24x192x192_o1_0_0_S1x192x192 0 h w (1 : Fin 24) h w
        rfl (Nat.zero_add _).symm (Nat.zero_add _).symm,
      centre_at,
      shapeCast_ab_1ab_apply,
      select_eq_zero _ hi]
  by_cases h0 : (i 1).val = 0
  · rw [if_pos h0, if_pos h0, zeroPlane_at]
  · rw [if_neg h0, if_neg h0, plane_window_at]

/-- PLANE 23 of the slab: the in-plane part, plus plane 22, plus the plane above (zero at the last slab of the depth
    axis). -/
theorem row23_at (i : grid0.Coords) (v2 : Vec Ideal S1x1x24x194x194 .f32) (v6 : Vec Ideal S1x1x1x194x194 .f32)
    (h w : Fin 192) :
    k0_pay1 (F := Ideal) (k0_pay4 v2) (k0_pay7 i v6) (k0_pay9 v2) (ix5 (0 : Fin 1) (0 : Fin 1) (0 : Fin 1) h w)
      = (inPlane v2 (23 : Fin 24) h w
          + v2 (ix5 (0 : Fin 1) (0 : Fin 1) (22 : Fin 24) (⟨h.val + 1, by omega⟩ : Fin 194) (⟨w.val + 1, by omega⟩ : Fin 194)))
        + (if (i 1).val = 7 then (0 : EReal)
           else v6 (ix5 (0 : Fin 1) (0 : Fin 1) (0 : Fin 1) (⟨h.val + 1, by omega⟩ : Fin 194) (⟨w.val + 1, by omega⟩ : Fin 194))) := by
  unfold k0_pay1
  dsimp only
  refine (cast_mab_11mab _ shapeCasts_S1x192x192_S1x1x1x192x192 0 0 0 h w).trans ?_
  simp only [addf_apply]
  rw [last_at,
      slice3_at ![22, 0, 0] (k0_pay4 (F := Ideal) v2) slices_S24x192x192_o22_0_0_S1x192x192 0 h w (22 : Fin 24) h w
        rfl (Nat.zero_add _).symm (Nat.zero_add _).symm,
      centre_at,
      shapeCast_ab_1ab_apply,
      above_at]

/-- PLANES 1 … 22 of the slab: at plane `r + 1` the in-plane part, plus plane `r`, plus plane `r + 2`. -/
theorem mid_at (v2 : Vec Ideal S1x1x24x194x194 .f32) (r : Fin 22) (h w : Fin 192) :
    k0_pay2 (F := Ideal) (k0_pay4 v2) (k0_pay5 v2) (ix5 (0 : Fin 1) (0 : Fin 1) r h w)
      = (inPlane v2 (⟨r.val + 1, by omega⟩ : Fin 24) h w
          + v2 (ix5 (0 : Fin 1) (0 : Fin 1) (⟨r.val, by omega⟩ : Fin 24) (⟨h.val + 1, by omega⟩ : Fin 194) (⟨w.val + 1, by omega⟩ : Fin 194)))
        + v2 (ix5 (0 : Fin 1) (0 : Fin 1) (⟨r.val + 2, by omega⟩ : Fin 24) (⟨h.val + 1, by omega⟩ : Fin 194) (⟨w.val + 1, by omega⟩ : Fin 194)) := by
  unfold k0_pay2
  refine (cast_mab_11mab _ shapeCasts_S22x192x192_S1x1x22x192x192 0 0 r h w).trans ?_
  simp only [addf_apply]
  rw [slice3_at ![1, 0, 0] (k0_pay5 (F := Ideal) v2) slices_S24x192x192_o1_0_0_S22x192x192 r h w
        (⟨r.val + 1, by omega⟩ : Fin 24) h w (Nat.add_comm _ _) (Nat.zero_add _).symm (Nat.zero_add _).symm,
      inPlane_at,
      slice3_at ![0, 0, 0] (k0_pay4 (F := Ideal) v2) slices_S24x192x192_o0_0_0_S22x192x192 r h w
        (⟨r.val, by omega⟩ : Fin 24) h w (Nat.zero_add _).symm (Nat.zero_add _).symm (Nat.zero_add _).symm,
      centre_at,
      slice3_at ![2, 0, 0] (k0_pay4 (F := Ideal) v2) slices_S24x192x192_o2_0_0_S22x192x192 r h w
        (⟨r.val + 2, by omega⟩ : Fin 24) h w (Nat.add_comm _ _) (Nat.zero_add _).symm (Nat.zero_add _).symm,
      centre_at]

end Cert.KernelIdeal.PayloadAt

end
-- ==== Proof.KernelValue.lean ====
/-
  What the idealized kernel's result array holds: the seven-point Laplacian of its argument with a zero border.

  The region reads the argument through its padding by one zero on each side of the two innermost axes.  Grid point
  (b, i) works on batch entry b and on the 24 depth planes 24 i … 24 i + 23: its slab block is those planes of the
  padded array, its lower plane is plane 24 i - 1 (plane 0 when i = 0, where the body replaces it by zeros) and its
  upper plane is plane 24 i + 24 (plane 191 when i = 7, again replaced by zeros).  Read through a border of zeros on
  all three spatial axes (`pz`), every one of these reads is the padded argument at a padded coordinate, the zero
  planes at the two ends being the border in depth.  Each of the three stored pieces (depth row 0, depth row 23,
  depth rows 1 … 22) is then the Laplacian of the argument at the piece's own coordinates, in-plane part first; the
  pieces cover the result block, the blocks cover the result array, and the order of summation does not matter on
  the extended reals.  So the result array is the Laplacian, index by index.
-/
import proofs.«134238_j14998025798278_1_alg».proof.Proof.FrameKI
import proofs.«134238_j14998025798278_1_alg».proof.Proof.Spec
import proofs.«134238_j14998025798278_1_alg».proof.Proof.LibPadRead
import proofs.«134238_j14998025798278_1_alg».proof.Proof.PayloadAt
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KV

open Cert.KernelIdeal Cert.KernelIdeal.Gen Cert.KernelIdeal.Fr Cert.Lap
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The argument array on core `c`. -/
abbrev xarg (c : Dev nD) : SX.Idx → EReal := m ((c : Thread nD τ).loc main_arg0)

/-! ## The padded array the region reads -/

/-- The array behind the three input windows is the argument padded by the converted integer zero on the two
    innermost axes. -/
theorem V_pad (c : Dev nD) :
    (V m c main_v0 : S8x1x192x194x194.Idx → EReal)
      = pad S8x1x192x194x194 ![0, 0, 0, 1, 1] ![0, 0, 0, 1, 1] ![0, 0, 0, 0, 0] (xarg m c)
          (sitofp (F := Ideal) .f32 (constantI S_ 32 0#32)) Gen.pads_S8x1x192x192x192_S8x1x192x194x194_000_000_000_110_110 Gen.h_S_ := by
  dsimp only [V]
  simp only [hostOps0, hostOps0_1, List.flatten_cons, List.flatten_nil, List.append_nil, List.cons_append, List.nil_append]
  after_results
  rfl

/-- The padding value is zero. -/
theorem padval_zero (i : S_.Idx) : sitofp (F := Ideal) .f32 (constantI S_ 32 0#32) i = (0 : EReal) := by
  show (((0#32 : BitVec 32).toInt : ℝ) : EReal) = 0
  simp

/-- The padded array at an index is the argument read through the zero border: depth coordinate `d` of the padded
    array is padded depth `d + 1`, the two innermost coordinates are already padded coordinates. -/
theorem V_read (c : Dev nD) (j : S8x1x192x194x194.Idx) :
    V m c main_v0 j = pz (xarg m c) (j 0) ((j 2).val + 1) (j 3).val (j 4).val := by
  have h2 : (j 2).val < 192 := (j 2).isLt
  have h3 : (j 3).val < 194 := (j 3).isLt
  have h4 : (j 4).val < 194 := (j 4).isLt
  rw [V_pad]
  by_cases hin : (1 ≤ (j 3).val ∧ (j 3).val ≤ 192) ∧ (1 ≤ (j 4).val ∧ (j 4).val ≤ 192)
  · obtain ⟨⟨h3a, h3b⟩, ⟨h4a, h4b⟩⟩ := hin
    rw [Cert.Lib.PadRead.pad_apply_inside _ _ _ (xarg m c) _ _ _ j
      (ix5 (j 0) (0 : Fin 1) (⟨(j 2).val + 1 - 1, by omega⟩ : Fin 192) (⟨(j 3).val - 1, by omega⟩ : Fin 192) (⟨(j 4).val - 1, by omega⟩ : Fin 192))
      (fun a => match a with
        | ⟨0, _⟩ => rfl | ⟨1, _⟩ => rfl | ⟨2, _⟩ => rfl | ⟨3, _⟩ => rfl | ⟨4, _⟩ => rfl)
      (fun a => match a with
        | ⟨0, _⟩ => by show (j 0).val = 0 + (j 0).val; omega
        | ⟨1, _⟩ => by
            have h1 : (j 1).val < 1 := (j 1).isLt
            show (j 1).val = 0 + 0; omega
        | ⟨2, _⟩ => by show (j 2).val = 0 + ((j 2).val + 1 - 1); omega
        | ⟨3, _⟩ => by show (j 3).val = 1 + ((j 3).val - 1); omega
        | ⟨4, _⟩ => by show (j 4).val = 1 + ((j 4).val - 1); omega)]
    unfold pz
    rw [dif_pos ⟨⟨by omega, by omega⟩, ⟨h3a, h3b⟩, ⟨h4a, h4b⟩⟩]
  · rw [pz_border (xarg m c) (j 0) _ _ _ (by omega)]
    by_cases h3' : 1 ≤ (j 3).val ∧ (j 3).val ≤ 192
    · rw [Cert.Lib.PadRead.pad_apply_outside _ _ _ (xarg m c) _ _ _ j (4 : Fin 5) rfl
        (by show (j 4).val < 1 ∨ 1 + 192 ≤ (j 4).val; omega)]
      exact padval_zero _
    · rw [Cert.Lib.PadRead.pad_apply_outside _ _ _ (xarg m c) _ _ _ j (3 : Fin 5) rfl
        (by show (j 3).val < 1 ∨ 1 + 192 ≤ (j 3).val; omega)]
      exact padval_zero _

/-! ## The printed index maps over the grid -/

/-- At grid point `t` = (b, i): the slab and result windows are at block (b, 0, i, 0, 0); the lower plane is plane
    24 i - 1, cut off at 0; the upper plane is plane 24 i + 24, cut off at 191; and b, i are below 8. -/
theorem idx_facts : ∀ t : Fin cfg0.N,
    (win0_0.index t (0 : Fin 5) = (grid0.coords t 0).val ∧ win0_0.index t (1 : Fin 5) = 0 ∧ win0_0.index t (2 : Fin 5) = (grid0.coords t 1).val
      ∧ win0_0.index t (3 : Fin 5) = 0 ∧ win0_0.index t (4 : Fin 5) = 0)
    ∧ (win0_1.index t (0 : Fin 5) = (grid0.coords t 0).val ∧ win0_1.index t (1 : Fin 5) = 0 ∧ win0_1.index t (2 : Fin 5) = 24 * (grid0.coords t 1).val - 1
      ∧ win0_1.index t (3 : Fin 5) = 0 ∧ win0_1.index t (4 : Fin 5) = 0)
    ∧ (win0_2.index t (0 : Fin 5) = (grid0.coords t 0).val ∧ win0_2.index t (1 : Fin 5) = 0 ∧ win0_2.index t (2 : Fin 5) = min (24 * (grid0.coords t 1).val + 24) 191
      ∧ win0_2.index t (3 : Fin 5) = 0 ∧ win0_2.index t (4 : Fin 5) = 0)
    ∧ (win0_3.index t (0 : Fin 5) = (grid0.coords t 0).val ∧ win0_3.index t (1 : Fin 5) = 0 ∧ win0_3.index t (2 : Fin 5) = (grid0.coords t 1).val
      ∧ win0_3.index t (3 : Fin 5) = 0 ∧ win0_3.index t (4 : Fin 5) = 0)
    ∧ (grid0.coords t 0).val < 8 ∧ (grid0.coords t 1).val < 8 :=
  (by decide +kernel : ∀ t : Fin grid0.N, _)

/-- Every (batch entry, slab) pair is some grid point's. -/
theorem idx_onto : ∀ (q0 : Fin 8) (q1 : Fin 8), ∃ t : Fin cfg0.N, (grid0.coords t 0).val = q0.val ∧ (grid0.coords t 1).val = q1.val :=
  (by decide +kernel : ∀ (q0 : Fin 8) (q1 : Fin 8), ∃ t : Fin grid0.N, (grid0.coords t 0).val = q0.val ∧ (grid0.coords t 1).val = q1.val)

/-- The same reading with the coordinates named. -/
theorem V_read_at (c : Dev nD) (j : S8x1x192x194x194.Idx) (b : Fin 8) (d h w : ℕ)
    (hb : (j 0).val = b.val) (hd : (j 2).val + 1 = d) (hh : (j 3).val = h) (hw : (j 4).val = w) :
    V m c main_v0 j = pz (xarg m c) b d h w := by
  rw [V_read]
  subst hd hh hw
  have e : j 0 = b := Fin.ext hb
  rw [e]

/-- The batch entry and the slab number of a grid point. -/
def bOf (t : Fin cfg0.N) : Fin 8 := ⟨(grid0.coords t 0).val, (idx_facts t).2.2.2.2.1⟩
def iOf (t : Fin cfg0.N) : Fin 8 := ⟨(grid0.coords t 1).val, (idx_facts t).2.2.2.2.2⟩

/-! ## The three input blocks at a grid point -/

/-- The slab block: local depth row `r` is depth plane `24 i + r`, padded depth `24 i + r + 1`. -/
theorem slab_read (c : Dev nD) (t : Fin cfg0.N) (r : Fin 24) (h w : Fin 194) :
    iblk m c 0 t (ix5 (0 : Fin 1) (0 : Fin 1) r h w)
      = pz (xarg m c) (bOf t) (24 * (iOf t).val + r.val + 1) h.val w.val := by
  obtain ⟨⟨e0, e1, e2, e3, e4⟩, -, -, -, hb, hi⟩ := idx_facts t
  have hr : r.val < 24 := r.isLt
  show V m c main_v0 (((cfg0.win 0).blk t).view.emb (ix5 (0 : Fin 1) (0 : Fin 1) r h w)) = _
  refine V_read_at m c _ (bOf t) _ _ _ ?_ ?_ ?_ ?_
  · show win0_0.index t (0 : Fin 5) * 1 + 1 * 0 = (grid0.coords t 0).val; omega
  · show win0_0.index t (2 : Fin 5) * 24 + 1 * r.val + 1 = 24 * (grid0.coords t 1).val + r.val + 1; omega
  · show win0_0.index t (3 : Fin 5) * 194 + 1 * h.val = h.val; omega
  · show win0_0.index t (4 : Fin 5) * 194 + 1 * w.val = w.val; omega

/-- The lower plane: depth plane `24 i - 1` (cut off at 0), padded depth `24 i - 1 + 1`. -/
theorem lower_read (c : Dev nD) (t : Fin cfg0.N) (h w : Fin 194) :
    iblk m c 1 t (ix5 (0 : Fin 1) (0 : Fin 1) (0 : Fin 1) h w)
      = pz (xarg m c) (bOf t) (24 * (iOf t).val - 1 + 1) h.val w.val := by
  obtain ⟨-, ⟨e0, e1, e2, e3, e4⟩, -, -, hb, hi⟩ := idx_facts t
  show V m c main_v0 (((cfg0.win 1).blk t).view.emb (ix5 (0 : Fin 1) (0 : Fin 1) (0 : Fin 1) h w)) = _
  refine V_read_at m c _ (bOf t) _ _ _ ?_ ?_ ?_ ?_
  · show win0_1.index t (0 : Fin 5) * 1 + 1 * 0 = (grid0.coords t 0).val; omega
  · show win0_1.index t (2 : Fin 5) * 1 + 1 * 0 + 1 = 24 * (grid0.coords t 1).val - 1 + 1; omega
  · show win0_1.index t (3 : Fin 5) * 194 + 1 * h.val = h.val; omega
  · show win0_1.index t (4 : Fin 5) * 194 + 1 * w.val = w.val; omega

/-- The upper plane: depth plane `24 i + 24` (cut off at 191), padded depth one more. -/
theorem upper_read (c : Dev nD) (t : Fin cfg0.N) (h w : Fin 194) :
    iblk m c 2 t (ix5 (0 : Fin 1) (0 : Fin 1) (0 : Fin 1) h w)
      = pz (xarg m c) (bOf t) (min (24 * (iOf t).val + 24) 191 + 1) h.val w.val := by
  obtain ⟨-, -, ⟨e0, e1, e2, e3, e4⟩, -, hb, hi⟩ := idx_facts t
  show V m c main_v0 (((cfg0.win 2).blk t).view.emb (ix5 (0 : Fin 1) (0 : Fin 1) (0 : Fin 1) h w)) = _
  refine V_read_at m c _ (bOf t) _ _ _ ?_ ?_ ?_ ?_
  · show win0_2.index t (0 : Fin 5) * 1 + 1 * 0 = (grid0.coords t 0).val; omega
  · show win0_2.index t (2 : Fin 5) * 1 + 1 * 0 + 1 = min (24 * (grid0.coords t 1).val + 24) 191 + 1; omega
  · show win0_2.index t (3 : Fin 5) * 194 + 1 * h.val = h.val; omega
  · show win0_2.index t (4 : Fin 5) * 194 + 1 * w.val = w.val; omega

/-! ## What one grid point writes back -/

/-- The zero offsets of a whole-buffer rectangle, however spelt. -/
theorem hz5 : (![0, 0, 0, 0, 0] : Fin 5 → Nat) = fun _ => 0 := funext fun a => by fin_cases a <;> rfl

/-- The Laplacian (in-plane part first) at padded natural coordinates: `lapK` without the bounds. -/
def lapKn (x : SX.Idx → EReal) (b : Fin 8) (d h w : ℕ) : EReal :=
  ((((((pz x b (d + 1) h (w + 1) + pz x b (d + 1) (h + 2) (w + 1))
        + pz x b (d + 1) (h + 1) w) + pz x b (d + 1) (h + 1) (w + 2))
      - six * pz x b (d + 1) (h + 1) (w + 1))
    + pz x b d (h + 1) (w + 1)) + pz x b (d + 2) (h + 1) (w + 1))

theorem lapK_eq_lapKn (x : SX.Idx → EReal) (b : Fin 8) (d h w : Fin 192) : lapK x b d h w = lapKn x b d.val h.val w.val := rfl

theorem lapKn_congr (x : SX.Idx → EReal) (b : Fin 8) {d d' h h' w w' : ℕ} (hd : d = d') (hh : h = h') (hw : w = w') :
    lapKn x b d h w = lapKn x b d' h' w' := by subst hd hh hw; rfl

/-- The block grid point (b, i) is to write: the Laplacian at depth `24 i + r` for the block's depth row `r`. -/
def Gblk (x : SX.Idx → EReal) (b i : Fin 8) : S1x1x24x192x192.Idx → EReal :=
  fun y => lapKn x b (24 * i.val + (y 2).val) (y 3).val (y 4).val

/-- The in-plane part over the slab block is the in-plane part of the Laplacian at the slab's depth. -/
theorem inPlane_slab (c : Dev nD) (t : Fin cfg0.N) (r : Fin 24) (h w : Fin 192) :
    PayloadAt.inPlane (iblk m c 0 t) r h w
      = (((pz (xarg m c) (bOf t) (24 * (iOf t).val + r.val + 1) h.val (w.val + 1) + pz (xarg m c) (bOf t) (24 * (iOf t).val + r.val + 1) (h.val + 2) (w.val + 1))
          + pz (xarg m c) (bOf t) (24 * (iOf t).val + r.val + 1) (h.val + 1) w.val) + pz (xarg m c) (bOf t) (24 * (iOf t).val + r.val + 1) (h.val + 1) (w.val + 2))
        - six * pz (xarg m c) (bOf t) (24 * (iOf t).val + r.val + 1) (h.val + 1) (w.val + 1) := by
  unfold PayloadAt.inPlane
  simp only [slab_read]

/-- Every index of a rank-5 block with two leading unit axes is `ix5 0 0 r h w`. -/
theorem eq_ix5_00 {n a b : ℕ} (y : (⟨5, ![1, 1, n, a, b]⟩ : Shape).Idx) : y = ix5 (0 : Fin 1) (0 : Fin 1) (y 2) (y 3) (y 4) := by
  funext k
  match k with
  | ⟨0, _⟩ => exact Fin.ext (by have h0 : (y 0).val < 1 := (y 0).isLt; show (y 0).val = 0; omega)
  | ⟨1, _⟩ => exact Fin.ext (by have h1 : (y 1).val < 1 := (y 1).isLt; show (y 1).val = 0; omega)
  | ⟨2, _⟩ => rfl
  | ⟨3, _⟩ => rfl
  | ⟨4, _⟩ => rfl

/-- Depth rows 1 … 22: the stored piece is the Laplacian at the rows' own depths. -/
theorem mid_piece (c : Dev nD) (t : Fin cfg0.N) (y : S1x1x22x192x192.Idx) :
    k0_pay2 (F := Ideal) (k0_pay4 (View.ld (iblk m c 0 t) rSlab)) (k0_pay5 (View.ld (iblk m c 0 t) rSlab)) y
      = Gblk (xarg m c) (bOf t) (iOf t) (rMid.emb y) := by
  obtain ⟨r, h, w, rfl⟩ : ∃ (r : Fin 22) (h w : Fin 192), y = ix5 (0 : Fin 1) (0 : Fin 1) r h w := ⟨y 2, y 3, y 4, eq_ix5_00 y⟩
  show _ = lapKn (xarg m c) (bOf t) (24 * (iOf t).val + (1 + 1 * r.val)) (0 + 1 * h.val) (0 + 1 * w.val)
  simp only [View.ld_unit_zero (S := S1x1x24x194x194) hz5]
  rw [PayloadAt.mid_at, inPlane_slab, slab_read, slab_read,
    lapKn_congr (xarg m c) (bOf t) (show 24 * (iOf t).val + (1 + 1 * r.val) = 24 * (iOf t).val + (r.val + 1) by omega)
      (show 0 + 1 * h.val = h.val by omega) (show 0 + 1 * w.val = w.val by omega)]
  unfold lapKn
  simp only [Nat.add_assoc, Nat.reduceAdd]

/-- Depth row 23: the stored piece is the Laplacian at depth `24 i + 23`; above the last slab lies the border. -/
theorem last_piece (c : Dev nD) (t : Fin cfg0.N) (y : S1x1x1x192x192.Idx) :
    k0_pay1 (F := Ideal) (k0_pay4 (View.ld (iblk m c 0 t) rSlab)) (k0_pay7 (grid0.coords t) (View.ld (iblk m c 2 t) rPlane)) (k0_pay9 (View.ld (iblk m c 0 t) rSlab)) y
      = Gblk (xarg m c) (bOf t) (iOf t) (rLast.emb y) := by
  have hi : (iOf t).val < 8 := (iOf t).isLt
  obtain ⟨r, h, w, rfl⟩ : ∃ (r : Fin 1) (h w : Fin 192), y = ix5 (0 : Fin 1) (0 : Fin 1) r h w := ⟨y 2, y 3, y 4, eq_ix5_00 y⟩
  obtain rfl : r = 0 := Fin.ext (by omega)
  show _ = lapKn (xarg m c) (bOf t) (24 * (iOf t).val + (23 + 1 * 0)) (0 + 1 * h.val) (0 + 1 * w.val)
  simp only [View.ld_unit_zero (S := S1x1x24x194x194) hz5, View.ld_unit_zero (S := S1x1x1x194x194) hz5]
  rw [PayloadAt.row23_at, inPlane_slab, slab_read,
    lapKn_congr (xarg m c) (bOf t) (show 24 * (iOf t).val + (23 + 1 * 0) = 24 * (iOf t).val + 23 by omega)
      (show 0 + 1 * h.val = h.val by omega) (show 0 + 1 * w.val = w.val by omega)]
  have hup : (if (grid0.coords t 1).val = 7 then (0 : EReal) else iblk m c 2 t (ix5 (0 : Fin 1) (0 : Fin 1) (0 : Fin 1) (⟨h.val + 1, by omega⟩ : Fin 194) (⟨w.val + 1, by omega⟩ : Fin 194)))
      = pz (xarg m c) (bOf t) (24 * (iOf t).val + 23 + 2) (h.val + 1) (w.val + 1) := by
    by_cases h7 : (grid0.coords t 1).val = 7
    · rw [if_pos h7]
      have h7' : (iOf t).val = 7 := h7
      exact (pz_border _ _ _ _ _ (by omega)).symm
    · rw [if_neg h7, upper_read]
      have h7' : (iOf t).val ≠ 7 := h7
      exact congrArg (fun d => pz (xarg m c) (bOf t) d (h.val + 1) (w.val + 1)) (by omega)
  rw [hup]
  unfold lapKn
  have e23 : ((23 : Fin 24) : ℕ) = 23 := rfl
  have e22 : ((22 : Fin 24) : ℕ) = 22 := rfl
  simp only [e23, e22, Nat.add_assoc, Nat.reduceAdd]

/-- Depth row 0: the stored piece is the Laplacian at depth `24 i`; below the first slab lies the border. -/
theorem first_piece (c : Dev nD) (t : Fin cfg0.N) (y : S1x1x1x192x192.Idx) :
    k0_pay8 (F := Ideal) (grid0.coords t) (View.ld (iblk m c 0 t) rSlab) (View.ld (iblk m c 1 t) rPlane) y
      = Gblk (xarg m c) (bOf t) (iOf t) (rFirst.emb y) := by
  have hi : (iOf t).val < 8 := (iOf t).isLt
  obtain ⟨r, h, w, rfl⟩ : ∃ (r : Fin 1) (h w : Fin 192), y = ix5 (0 : Fin 1) (0 : Fin 1) r h w := ⟨y 2, y 3, y 4, eq_ix5_00 y⟩
  obtain rfl : r = 0 := Fin.ext (by omega)
  show _ = lapKn (xarg m c) (bOf t) (24 * (iOf t).val + (0 + 1 * 0)) (0 + 1 * h.val) (0 + 1 * w.val)
  simp only [View.ld_unit_zero (S := S1x1x24x194x194) hz5, View.ld_unit_zero (S := S1x1x1x194x194) hz5]
  rw [PayloadAt.row0_at, inPlane_slab, slab_read,
    lapKn_congr (xarg m c) (bOf t) (show 24 * (iOf t).val + (0 + 1 * 0) = 24 * (iOf t).val by omega)
      (show 0 + 1 * h.val = h.val by omega) (show 0 + 1 * w.val = w.val by omega)]
  have hlo : (if (grid0.coords t 1).val = 0 then (0 : EReal) else iblk m c 1 t (ix5 (0 : Fin 1) (0 : Fin 1) (0 : Fin 1) (⟨h.val + 1, by omega⟩ : Fin 194) (⟨w.val + 1, by omega⟩ : Fin 194)))
      = pz (xarg m c) (bOf t) (24 * (iOf t).val) (h.val + 1) (w.val + 1) := by
    by_cases h0 : (grid0.coords t 1).val = 0
    · rw [if_pos h0]
      have h0' : (iOf t).val = 0 := h0
      exact (pz_border _ _ _ _ _ (by omega)).symm
    · rw [if_neg h0, lower_read]
      have h0' : (iOf t).val ≠ 0 := h0
      exact congrArg (fun d => pz (xarg m c) (bOf t) d (h.val + 1) (w.val + 1)) (by omega)
  rw [hlo]
  unfold lapKn
  simp only [Nat.add_assoc, Nat.reduceAdd, Fin.val_ofNat, Nat.reduceMod, Fin.val_zero, Fin.val_one, Nat.add_zero]

/-- Each of the three stored pieces is the block's function at the piece's own place. -/
theorem pieces_eq (c : Dev nD) (t : Fin cfg0.N) :
    ∀ p ∈ pieces (F := Ideal) (grid0.coords t) (iblk m c 0 t) (iblk m c 1 t) (iblk m c 2 t),
      ∀ y : p.1.shape.Idx, p.2 y = Gblk (xarg m c) (bOf t) (iOf t) (p.1.emb y) := by
  intro p hp
  simp only [pieces, List.mem_cons, List.mem_nil_iff, or_false] at hp
  rcases hp with rfl | rfl | rfl
  · exact mid_piece m c t
  · exact last_piece m c t
  · exact first_piece m c t

/-- The Laplacian array at an index whose coordinates are named. -/
theorem lapArr_at (x : SX.Idx → EReal) (j : SX.Idx) (b : Fin 8) (d h w : ℕ)
    (hb : (j 0).val = b.val) (hd : (j 2).val = d) (hh : (j 3).val = h) (hw : (j 4).val = w) :
    lapArr x j = lapKn x b d h w := by
  subst hd hh hw
  have e : (j 0 : Fin 8) = b := Fin.ext hb
  show lapR x (j 0) (j 2) (j 3) (j 4) = _
  exact ((lapK_eq_lapR x (j 0) (j 2) (j 3) (j 4)).symm.trans (lapK_eq_lapKn x (j 0) (j 2) (j 3) (j 4))).trans
    (congrArg (fun b' : Fin 8 => lapKn x b' (j 2).val (j 3).val (j 4).val) e)

/-- WHAT POINT `t` WRITES BACK is block `t` of the Laplacian of the argument. -/
theorem flushed_eq (c : Dev nD) (t : Fin cfg0.N) :
    (dats m 0 c).flushed 3 t = ((cfg0.win 3).blk t).view.read (Elt Ideal) (lapArr (xarg m c)) := by
  obtain ⟨-, -, -, ⟨e0, e1, e2, e3, e4⟩, hb, hi⟩ := idx_facts t
  show (cfg0.win 3).cut (grid0.coords t) ((dats m 0 c).after 3 t) = _
  rw [after0_3]
  unfold out0_3
  funext y
  show View.canon (pieces (F := Ideal) (grid0.coords t) (iblk m c 0 t) (iblk m c 1 t) (iblk m c 2 t)) y
    = lapArr (xarg m c) (((cfg0.win 3).blk t).view.emb y)
  rw [View.canon_apply_of_pieces (Gblk (xarg m c) (bOf t) (iOf t)) _ (pieces_eq m c t) y (cover0_3 _ _ _ _ y)]
  have h0 : (y 0).val < 1 := (y 0).isLt
  show lapKn (xarg m c) (bOf t) (24 * (iOf t).val + (y 2).val) (y 3).val (y 4).val
    = lapArr (xarg m c) (((cfg0.win 3).blk t).view.emb y)
  refine (lapArr_at (xarg m c) _ (bOf t) _ _ _ ?_ ?_ ?_ ?_).symm
  · show win0_3.index t (0 : Fin 5) * 1 + 1 * (y 0).val = (grid0.coords t 0).val; omega
  · show win0_3.index t (2 : Fin 5) * 24 + 1 * (y 2).val = 24 * (grid0.coords t 1).val + (y 2).val; omega
  · show win0_3.index t (3 : Fin 5) * 192 + 1 * (y 3).val = (y 3).val; omega
  · show win0_3.index t (4 : Fin 5) * 192 + 1 * (y 4).val = (y 4).val; omega

/-! ## The blocks cover the result array -/

/-- An index of the result array is in point `t`'s block iff each coordinate is in the block's range on its axis. -/
theorem mem_blk (t : Fin cfg0.N) (i : S8x1x192x192x192.Idx) :
    i ∈ ((cfg0.win 3).blk t).view.set ↔ ∀ a : Fin 5, win0_3.index t a * S1x1x24x192x192.size a ≤ (i a).val
      ∧ (i a).val < win0_3.index t a * S1x1x24x192x192.size a + S1x1x24x192x192.size a := by
  show i ∈ ((View.whole main_v1).slice (win0_3.rect t)).set ↔ _
  rw [View.set_slice_whole, Rect.mem_set_unit]
  exact Iff.rfl

/-- Every index of the result array lies in the block of the grid point (its batch entry, its depth over 24). -/
theorem cover (i : S8x1x192x192x192.Idx) :
    ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 192 := (i 2).isLt
  have h3 : (i 3).val < 192 := (i 3).isLt
  have h4 : (i 4).val < 192 := (i 4).isLt
  obtain ⟨t, hb, hi⟩ := idx_onto ⟨(i 0).val, h0⟩ ⟨(i 2).val / 24, by omega⟩
  have hb' : (grid0.coords t 0).val = (i 0).val := hb
  have hi' : (grid0.coords t 1).val = (i 2).val / 24 := hi
  obtain ⟨-, -, -, ⟨e0, e1, e2, e3, e4⟩, -, -⟩ := idx_facts t
  refine ⟨t, flush0_3 t, ?_⟩
  rw [mem_blk]
  intro a
  match a with
  | ⟨0, _⟩ => show win0_3.index t (0 : Fin 5) * 1 ≤ (i 0).val ∧ (i 0).val < win0_3.index t (0 : Fin 5) * 1 + 1; omega
  | ⟨1, _⟩ => show win0_3.index t (1 : Fin 5) * 1 ≤ (i 1).val ∧ (i 1).val < win0_3.index t (1 : Fin 5) * 1 + 1; omega
  | ⟨2, _⟩ => show win0_3.index t (2 : Fin 5) * 24 ≤ (i 2).val ∧ (i 2).val < win0_3.index t (2 : Fin 5) * 24 + 24; omega
  | ⟨3, _⟩ => show win0_3.index t (3 : Fin 5) * 192 ≤ (i 3).val ∧ (i 3).val < win0_3.index t (3 : Fin 5) * 192 + 192; omega
  | ⟨4, _⟩ => show win0_3.index t (4 : Fin 5) * 192 ≤ (i 4).val ∧ (i 4).val < win0_3.index t (4 : Fin 5) * 192 + 192; omega

/-! ## The result array after the run -/

/-- The result array ends holding the Laplacian of the argument. -/
theorem final (c : Dev nD) : (dats m 0 c).arrAt 3 cfg0.N = lapArr (xarg m c) :=
  (dats m 0 c).arrAt_eq_of_cover 3 (lapArr (xarg m c)) (fun t _ => flushed_eq m c t) cover

/-- The run, read: every weakly fair execution terminates with the result array at the Laplacian of the argument and
    the argument unchanged. -/
theorem run : θ_run defs (onTc (τ := τ) (main (F := Ideal))) ⟨m, fun _ => 0, ρ⟩ fun r => ∀ c : Dev nD,
      r.2.mem ((c.tc : Thread nD τ).loc main_v1) = lapArr (xarg m c)
      ∧ r.2.mem ((c.tc : Thread nD τ).loc main_arg0) = m ((c.tc : Thread nD τ).loc main_arg0) :=
  (θ_run defs _ _).mono (fun r h c => ⟨((h c).1 3).trans (final m c),
      ((h c).2 main_arg0 arg0_rest).trans (V_main_arg0 m c)⟩)
    (run_main m ρ)

end Cert.KernelIdeal.KV

end
-- ==== Proof.RefValue.lean ====
/-
  The reference program computes the seven-point Laplacian with a zero border.

  The program pads the input array (shape [8, 1, 192, 192, 192]) by one entry on each side of its three spatial axes,
  takes seven slices of the padded array (the centre and the six unit shifts), adds the six shifted slices in the order
  depth pair, height pair, width pair, and subtracts six times the centre slice.

  Two facts give the result index by index.  First, the padded array at an index is the input read through the zero
  border at that index's spatial coordinates: when all three coordinates lie in 1 … 192 the index minus one on each
  spatial axis is an index of the input and the padded array holds the input there; when one coordinate is 0 or 193 the
  padded array holds the padding value, the integer zero converted to a real, which is zero — and the border reading is
  zero there too.  The second axis has extent one, so its coordinate is 0 on both sides.  Second, a slice with offset
  `o` on an axis reads the padded array at `o + n` where the result's coordinate is `n`; the specification writes the same
  coordinate `n + o`, and the two agree by commutativity of addition.  With every slice read this way the program's
  sums, product and difference are those of the extended reals and the constant is the factor six, so the value at
  each index is the specification's term, symbol for symbol.
-/
import proofs.«134238_j14998025798278_1_alg».proof.Proof.Gen.ReferenceIdeal.Read
import proofs.«134238_j14998025798278_1_alg».proof.Proof.Spec
import proofs.«134238_j14998025798278_1_alg».proof.Proof.LibPadRead
import Idealize.ShloMosaic.Lib.ValueIdx
import Idealize.ShloMosaic.PureOps.Ideal

noncomputable section

namespace Cert.ReferenceIdeal.RefValue

open Cert.ReferenceIdeal Cert.ReferenceIdeal.Gen Cert.ReferenceIdeal.Read Idealize.ShloMosaic Idealize.ShloMosaic.ValueIdx Cert.Lap

/-- The padding value: the integer zero converted to a real is the real zero. -/
theorem padval_zero (i : S_.Idx) : val_main_call0_v0 (F := Ideal) i = (0 : EReal) := by
  rw [val_main_call0_v0_apply, val_main_c_apply]
  show (((0#32 : BitVec 32).toInt : ℝ) : EReal) = 0
  simp

/-- The padded array at an index is the input read through the zero border at that index's three spatial coordinates. -/
theorem pad_read (x : FVec Ideal S8x1x192x192x192 .f32) (j : S8x1x194x194x194.Idx) :
    val_main_v0 (F := Ideal) x j = pz x (j 0) (j 2).val (j 3).val (j 4).val := by
  have h2 : (j 2).val < 194 := (j 2).isLt
  have h3 : (j 3).val < 194 := (j 3).isLt
  have h4 : (j 4).val < 194 := (j 4).isLt
  unfold val_main_v0
  by_cases hin : (1 ≤ (j 2).val ∧ (j 2).val ≤ 192) ∧ (1 ≤ (j 3).val ∧ (j 3).val ≤ 192) ∧ (1 ≤ (j 4).val ∧ (j 4).val ≤ 192)
  · obtain ⟨⟨h2a, h2b⟩, ⟨h3a, h3b⟩, ⟨h4a, h4b⟩⟩ := hin
    rw [Cert.Lib.PadRead.pad_apply_inside _ _ _ x _ _ _ j
      (ix5 (j 0) (0 : Fin 1) (⟨(j 2).val - 1, by omega⟩ : Fin 192) (⟨(j 3).val - 1, by omega⟩ : Fin 192) (⟨(j 4).val - 1, by omega⟩ : Fin 192))
      (fun a => match a with
        | ⟨0, _⟩ => rfl | ⟨1, _⟩ => rfl | ⟨2, _⟩ => rfl | ⟨3, _⟩ => rfl | ⟨4, _⟩ => rfl)
      (fun a => match a with
        | ⟨0, _⟩ => by show (j 0).val = 0 + (j 0).val; omega
        | ⟨1, _⟩ => by
            have h1 : (j 1).val < 1 := (j 1).isLt
            show (j 1).val = 0 + 0; omega
        | ⟨2, _⟩ => by show (j 2).val = 1 + ((j 2).val - 1); omega
        | ⟨3, _⟩ => by show (j 3).val = 1 + ((j 3).val - 1); omega
        | ⟨4, _⟩ => by show (j 4).val = 1 + ((j 4).val - 1); omega)]
    unfold pz
    rw [dif_pos ⟨⟨h2a, h2b⟩, ⟨h3a, h3b⟩, ⟨h4a, h4b⟩⟩]
  · rw [pz_border x (j 0) _ _ _ (by omega)]
    by_cases h2' : 1 ≤ (j 2).val ∧ (j 2).val ≤ 192
    · by_cases h3' : 1 ≤ (j 3).val ∧ (j 3).val ≤ 192
      · rw [Cert.Lib.PadRead.pad_apply_outside _ _ _ x _ _ _ j (4 : Fin 5) rfl
          (by show (j 4).val < 1 ∨ 1 + 192 ≤ (j 4).val; omega)]
        exact padval_zero _
      · rw [Cert.Lib.PadRead.pad_apply_outside _ _ _ x _ _ _ j (3 : Fin 5) rfl
          (by show (j 3).val < 1 ∨ 1 + 192 ≤ (j 3).val; omega)]
        exact padval_zero _
    · rw [Cert.Lib.PadRead.pad_apply_outside _ _ _ x _ _ _ j (2 : Fin 5) rfl
        (by show (j 2).val < 1 ∨ 1 + 192 ≤ (j 2).val; omega)]
      exact padval_zero _

/-- The same reading with the coordinates named: if the index's batch coordinate is `b` and its three spatial coordinates
    are `d`, `h`, `w`, the padded array there is the input through the zero border at `b d h w`. -/
theorem pad_read_at (x : FVec Ideal S8x1x192x192x192 .f32) (j : S8x1x194x194x194.Idx) (b : Fin 8) (d h w : ℕ)
    (hb : (j 0).val = b.val) (hd : (j 2).val = d) (hh : (j 3).val = h) (hw : (j 4).val = w) :
    val_main_v0 (F := Ideal) x j = pz x b d h w := by
  rw [pad_read]
  subst hd hh hw
  have e : j 0 = b := Fin.ext hb
  rw [e]

/-- The reference program's result is the seven-point Laplacian with a zero border, in the reference's order of
    summation: each of the seven slices of the padded array is the input read through the border at the slice's offset,
    the broadcast constant is the factor six, and the sums, the product and the difference are the extended reals'. -/
theorem val_eq (x : FVec Ideal S8x1x192x192x192 .f32) : val_main_v15 (F := Ideal) x = lapArr x := by
  funext i
  rw [val_main_v15_apply, val_main_v12_apply, val_main_v10_apply, val_main_v8_apply, val_main_v6_apply,
    val_main_v4_apply, val_main_v14_apply, val_main_v13_apply, val_main_cst_apply,
    val_main_v1_apply, val_main_v2_apply, val_main_v3_apply, val_main_v5_apply, val_main_v7_apply,
    val_main_v9_apply, val_main_v11_apply]
  rw [pad_read_at x (idx_main_v1 i) (i 0) ((i 2).val + 1) ((i 3).val + 1) ((i 4).val + 1)
        rfl (Nat.add_comm _ _) (Nat.add_comm _ _) (Nat.add_comm _ _),
      pad_read_at x (idx_main_v2 i) (i 0) (i 2).val ((i 3).val + 1) ((i 4).val + 1)
        rfl rfl (Nat.add_comm _ _) (Nat.add_comm _ _),
      pad_read_at x (idx_main_v3 i) (i 0) ((i 2).val + 2) ((i 3).val + 1) ((i 4).val + 1)
        rfl (Nat.add_comm _ _) (Nat.add_comm _ _) (Nat.add_comm _ _),
      pad_read_at x (idx_main_v5 i) (i 0) ((i 2).val + 1) (i 3).val ((i 4).val + 1)
        rfl (Nat.add_comm _ _) rfl (Nat.add_comm _ _),
      pad_read_at x (idx_main_v7 i) (i 0) ((i 2).val + 1) ((i 3).val + 2) ((i 4).val + 1)
        rfl (Nat.add_comm _ _) (Nat.add_comm _ _) (Nat.add_comm _ _),
      pad_read_at x (idx_main_v9 i) (i 0) ((i 2).val + 1) ((i 3).val + 1) (i 4).val
        rfl (Nat.add_comm _ _) (Nat.add_comm _ _) rfl,
      pad_read_at x (idx_main_v11 i) (i 0) ((i 2).val + 1) ((i 3).val + 1) ((i 4).val + 2)
        rfl (Nat.add_comm _ _) (Nat.add_comm _ _) (Nat.add_comm _ _)]
  simp only [Ideal.addf_def, Ideal.subf_def, Ideal.mulf_def, Ideal.ofBits_def]
  rfl

end Cert.ReferenceIdeal.RefValue

end
-- ==== Proof.lean ====
/-
  A three-dimensional seven-point Laplacian with a zero border: the slab-by-slab kernel against the plain reference.

  The kernel pads its argument on the two innermost axes, walks the depth axis in slabs of 24 planes, and for each slab
  adds to the in-plane part of the stencil the plane below and the plane above — taken from the neighbouring slab, or
  zero at the two ends of the depth axis.  The reference pads all three spatial axes with zeros and adds seven shifted
  copies.  On the extended reals both compute, at every index, the six neighbours' sum minus six times the centre of
  the argument read through a border of zeros; they differ only in the order of summation, which does not matter
  there, so no finiteness of the input is used.

  The three programs' runs: the two kernels' frame runs come from the body's triple at a generic grid point and the
  launch of a region whose three input windows share one array; the reference's run is its list of host operations.
  The idealization rewrote nothing, so the kernel's idealization is its own text read on the extended reals.
-/
import proofs.«134238_j14998025798278_1_alg».proof.Defs
import proofs.«134238_j14998025798278_1_alg».proof.Proof.Gen.Kernel
import proofs.«134238_j14998025798278_1_alg».proof.Proof.Gen.Kernel.Skeleton
import proofs.«134238_j14998025798278_1_alg».proof.Proof.Gen.Kernel.Launch
import proofs.«134238_j14998025798278_1_alg».proof.Proof.Gen.Kernel.Points
import proofs.«134238_j14998025798278_1_alg».proof.Proof.Gen.KernelIdeal
import proofs.«134238_j14998025798278_1_alg».proof.Proof.Gen.KernelIdeal.Skeleton
import proofs.«134238_j14998025798278_1_alg».proof.Proof.Gen.KernelIdeal.Launch
import proofs.«134238_j14998025798278_1_alg».proof.Proof.Gen.KernelIdeal.Points
import proofs.«134238_j14998025798278_1_alg».proof.Proof.Gen.ReferenceIdeal
import proofs.«134238_j14998025798278_1_alg».proof.Proof.Gen.ReferenceIdeal.Run
import proofs.«134238_j14998025798278_1_alg».proof.Proof.Gen.ReferenceIdeal.Read
import proofs.«134238_j14998025798278_1_alg».proof.Proof.Gen.Pre_finite_inputs
import proofs.«134238_j14998025798278_1_alg».proof.Proof.FrameK
import proofs.«134238_j14998025798278_1_alg».proof.Proof.FrameKI
import proofs.«134238_j14998025798278_1_alg».proof.Proof.KernelValue
import proofs.«134238_j14998025798278_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its argument unchanged. -/
theorem frame_p : Cert.frame_Kernel := fun m ρ _ => Cert.Kernel.Fr.frame m ρ

/-- So does its idealization. -/
theorem frame_pi : Cert.frame_KernelIdeal := fun m ρ _ => Cert.KernelIdeal.Fr.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result array and the reference's are both the Laplacian, with a zero border,
    of arguments that agree. -/
theorem algebraic : Cert.algebraic_KernelIdeal_ReferenceIdeal := by
  intro m ρ m' ρ' _ hagree
  refine ⟨_, Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.val_eq, hagree c]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
